-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4 : Shape := ⟨2, ![65536, 4]⟩
abbrev S65536 : Shape := ⟨1, ![65536]⟩
abbrev S4x2048 : Shape := ⟨2, ![4, 2048]⟩
abbrev S2048 : Shape := ⟨1, ![2048]⟩
abbrev S2048x2048 : Shape := ⟨2, ![2048, 2048]⟩
abbrev S2048x2 : Shape := ⟨2, ![2048, 2]⟩
abbrev S2 : Shape := ⟨1, ![2]⟩
abbrev S_ : Shape := ⟨0, ![]⟩

class Facts : Prop where
  bcast_S_S65536x4 : S_.BroadcastsInDim S65536x4 (![] : Fin 0 → Fin S65536x4.rank)
  reducesTo_S65536x4_S_d0_1 : S65536x4.ReducesTo [0, 1] S_
  h_S_ : 0 < S_.numel
  bcast_S_S65536 : S_.BroadcastsInDim S65536 (![] : Fin 0 → Fin S65536.rank)
  reducesTo_S65536_S_d0 : S65536.ReducesTo [0] S_
  bcast_S_S4x2048 : S_.BroadcastsInDim S4x2048 (![] : Fin 0 → Fin S4x2048.rank)
  reducesTo_S4x2048_S_d0_1 : S4x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x2 : S_.BroadcastsInDim S2048x2 (![] : Fin 0 → Fin S2048x2.rank)
  reducesTo_S2048x2_S_d0_1 : S2048x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S2048x2048 .f32) (main_arg5 : FVec F S2048 .f32) (main_arg6 : FVec F S2048x2 .f32) (main_arg7 : FVec F S2 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2 .f32 := Host.absf main_arg6
  let main_cst_10 : FVec F S_ .f32 := constant S_ .f32 0x7F800000#32
  let main_v30 : FVec F S2048x2 .f32 := broadcastInDim S2048x2 ![] bcast_S_S2048x2 main_cst_10
  let main_v31 : IVec S2048x2 1 := cmpf .olt main_v29 main_v30
  let main_c_11 : IVec S_ 1 := constantI S_ 1 1#1
  let main_v32 : IVec S_ 1 := (fun x v => Host.reduce IntOp.andi x v reducesTo_S2048x2_S_d0_1 h_S_) main_v31 main_c_11
  let main_v33 : IVec S_ 1 := andi main_v28 main_v32
  fn_part2 (F := F) main_arg7 main_v33

def fn {F : FTy → Type} [FloatOps F] (main_arg0 : FVec F S65536x4 .f32) (main_arg1 : FVec F S65536 .f32) (main_arg2 : FVec F S4x2048 .f32) (main_arg3 : FVec F S2048 .f32) (main_arg4 : FVec F S2048x2048 .f32) (main_arg5 : FVec F S2048 .f32) (main_arg6 : FVec F S2048x2 .f32) (main_arg7 : FVec F S2 .f32) : IVec S_ 1 :=
  let main_v0 : FVec F S65536x4 .f32 := Host.absf main_arg0
  let main_cst : FVec F S_ .f32 := constant S_ .f32 0x7F800000#32
  let main_v1 : FVec F S65536x4 .f32 := broadcastInDim S65536x4 ![] bcast_S_S65536x4 main_cst
  let main_v2 : IVec S65536x4 1 := cmpf .olt main_v0 main_v1
  let main_c : IVec S_ 1 := constantI S_ 1 1#1
  let main_v3 : IVec S_ 1 := (fun x v => Host.reduce IntOp.andi x v reducesTo_S65536x4_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S65536x4 : Shape := ⟨2, ![65536, 4]⟩
abbrev S65536 : Shape := ⟨1, ![65536]⟩
abbrev S4x2048 : Shape := ⟨2, ![4, 2048]⟩
abbrev S2048 : Shape := ⟨1, ![2048]⟩
abbrev S2048x2048 : Shape := ⟨2, ![2048, 2048]⟩
abbrev S2048x2 : Shape := ⟨2, ![2048, 2]⟩
abbrev S2 : Shape := ⟨1, ![2]⟩
abbrev S1x2048 : Shape := ⟨2, ![1, 2048]⟩
abbrev S1x2 : Shape := ⟨2, ![1, 2]⟩
abbrev S65536x2 : Shape := ⟨2, ![65536, 2]⟩
abbrev S64x4 : Shape := ⟨2, ![64, 4]⟩
abbrev S64x2 : Shape := ⟨2, ![64, 2]⟩
abbrev S64x2048 : Shape := ⟨2, ![64, 2048]⟩
abbrev S64x1 : Shape := ⟨2, ![64, 1]⟩
abbrev S64 : Shape := ⟨1, ![64]⟩
abbrev S2048x1 : Shape := ⟨2, ![2048, 1]⟩
abbrev S65536x1 : Shape := ⟨2, ![65536, 1]⟩
abbrev S_ : Shape := ⟨0, ![]⟩

abbrev nBuf : Space → Nat
  | .hbm => 46
  | .vmem => 10
  | .smem => 0
  | _ => 0

abbrev bufTy : (tb : Table) → Fin (tcTables nBuf tb) → BufTy
  | .hbm, ⟨0, _⟩ => ⟨S65536x4, .f32⟩
  | .hbm, ⟨1, _⟩ => ⟨S65536, .f32⟩
  | .hbm, ⟨2, _⟩ => ⟨S4x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2, .f32⟩
  | .hbm, ⟨7, _⟩ => ⟨S2, .f32⟩
  | .hbm, ⟨8, _⟩ => ⟨S4x2048, .bf16⟩
  | .hbm, ⟨9, _⟩ => ⟨S2048x2048, .bf16⟩
  | .hbm, ⟨10, _⟩ => ⟨S2048x2, .bf16⟩
  | .hbm, ⟨11, _⟩ => ⟨S1x2048, .f32⟩
  | .hbm, ⟨12, _⟩ => ⟨S1x2048, .f32⟩
  | .hbm, ⟨13, _⟩ => ⟨S1x2, .f32⟩
  | .hbm, ⟨14, _⟩ => ⟨S65536x2, .f32⟩
  | .hbm, ⟨15, _⟩ => ⟨S65536x1, .f32⟩
  | .hbm, ⟨16, _⟩ => ⟨S65536, .f32⟩
  | .hbm, ⟨17, _⟩ => ⟨S65536x1, .f32⟩
  | .hbm, ⟨18, _⟩ => ⟨S65536, .f32⟩
  | .hbm, ⟨19, _⟩ => ⟨S_, .f32⟩
  | .hbm, ⟨20, _⟩ => ⟨S65536, .f32⟩
  | .hbm, ⟨21, _⟩ => ⟨S65536, .f32⟩
  | .hbm, ⟨22, _⟩ => ⟨S65536, .f32⟩
  | .hbm, ⟨23, _⟩ => ⟨S_, .f32⟩
  | .hbm, ⟨24, _⟩ => ⟨S65536, .f32⟩
  | .hbm, ⟨25, _⟩ => ⟨S65536, .f32⟩
  | .hbm, ⟨26, _⟩ => ⟨S65536, .f32⟩
  | .hbm, ⟨27, _⟩ => ⟨S65536, .f32⟩
  | .hbm, ⟨28, _⟩ => ⟨S65536, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S65536, .f32⟩
  | .hbm, ⟨34, _⟩ => ⟨S65536, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S65536, .f32⟩
  | .hbm, ⟨45, _⟩ => ⟨S65536, .f32⟩
  | .local _ .vmem, ⟨0, _⟩ => ⟨S64x4, .f32⟩
  | .local _ .vmem, ⟨1, _⟩ => ⟨S64x4, .f32⟩
  | .local _ .vmem, ⟨2, _⟩ => ⟨S4x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S2048x2, .bf16⟩
  | .local _ .vmem, ⟨7, _⟩ => ⟨S1x2, .f32⟩
  | .local _ .vmem, ⟨8, _⟩ => ⟨S64x2, .f32⟩
  | .local _ .vmem, ⟨9, _⟩ => ⟨S64x2, .f32⟩
  | _, _ => ⟨S65536x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S2048_S1x2048 : S2048.ShapeCasts S1x2048
  shapeCasts_S2_S1x2 : S2.ShapeCasts S1x2
  inb_S64x4_S64x4_0_0 : ∀ a, (![0, 0] : Fin 2 → Nat) a + S64x4.size a ≤ S64x4.size a
  h_S64x4 : 0 < S64x4.numel
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x2_S2048x2_0_0 : ∀ a, (![0, 0] : Fin 2 → Nat) a + S2048x2.size a ≤ S2048x2.size a
  h_S2048x2 : 0 < S2048x2.numel
  shapeCasts_S2048x2_S2048x2 : S2048x2.ShapeCasts S2048x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  slices_S64x2_o0_0_S64x1 : S64x2.Slices ![0, 0] S64x1
  shapeCasts_S64x1_S64 : S64x1.ShapeCasts S64
  slices_S64x2_o0_1_S64x1 : S64x2.Slices ![0, 1] S64x1
  slices_S2048x2_o0_1_S2048x1 : S2048x2.Slices ![0, 1] S2048x1
  shapeCasts_S2048x1_S2048 : S2048x1.ShapeCasts S2048
  slices_S64x4_o0_1_S64x1 : S64x4.Slices ![0, 1] S64x1
  slices_S64x4_o0_2_S64x1 : S64x4.Slices ![0, 2] S64x1
  slices_S64x4_o0_3_S64x1 : S64x4.Slices ![0, 3] S64x1
  slices_S64x4_o0_0_S64x1 : S64x4.Slices ![0, 0] S64x1
  shapeCasts_S64_S64x1 : S64.ShapeCasts S64x1
  concatenates_S64x1_S64x1_S64x2_d1 : Shape.Concatenates [S64x1, S64x1] S64x2 1
  inb_S64x2_S64x2_0_0 : ∀ a, (![0, 0] : Fin 2 → Nat) a + S64x2.size a ≤ S64x2.size a
  h_S64x2 : 0 < S64x2.numel
  slices_S65536x2_S65536x1_0_0 : S65536x2.Slices ![0, 0] S65536x1
  shapeCasts_S65536x1_S65536 : S65536x1.ShapeCasts S65536
  slices_S65536x2_S65536x1_0_1 : S65536x2.Slices ![0, 1] S65536x1
  bcast_S_S65536 : S_.BroadcastsInDim S65536 (![] : Fin 0 → Fin S65536.rank)
  reducesTo_S65536_S_d0 : S65536.ReducesTo [0] S_
  h_S_ : 0 < S_.numel
  dot_S64x4_S4x2048_S64x2048_1_0_0_1_n_n_wf : DotDims.WF S64x4 S4x2048 S64x2048 [1] [0] [0] [1] [] []
  dot_S64x2048_S2048x2048_S64x2048_1_0_0_1_n_n_wf : DotDims.WF S64x2048 S2048x2048 S64x2048 [1] [0] [0] [1] [] []
  dot_S64x2048_S2048x2_S64x2_1_0_0_1_n_n_wf : DotDims.WF S64x2048 S2048x2 S64x2 [1] [0] [0] [1] [] []
  dot_S64x2048_S2048x2048_S64x2048_1_1_0_0_n_n_wf : DotDims.WF S64x2048 S2048x2048 S64x2048 [1] [1] [0] [0] [] []
  dot_S64x2048_S4x2048_S64x4_1_1_0_0_n_n_wf : DotDims.WF S64x2048 S4x2048 S64x4 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4.size a ≤ S65536x4.size a
  hwx0_0 : ∀ i : grid0.Coords, EltTy.bits .f32 = 32 ∨ (Rect.block (s := S65536x4) S64x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .bf16 = 32 ∨ (Rect.block (s := S4x2048) S4x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2.size a ≤ S2048x2.size a
  hwx0_5 : ∀ i : grid0.Coords, EltTy.bits .bf16 = 32 ∨ (Rect.block (s := S2048x2) S2048x2.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x2.size a ≤ S65536x2.size a
  hwx0_7 : ∀ i : grid0.Coords, EltTy.bits .f32 = 32 ∨ (Rect.block (s := S65536x2) S64x2.size (cc0_transform_7 i) (hinb0_7 i)).WholeWords (EltTy.packing .f32)

variable [Facts₀]

def dot_S64x4_S4x2048_S64x2048_1_0_0_1_n_n : DotDims S64x4 S4x2048 S64x2048 where
  lhsContracting := [1]
  rhsContracting := [0]
  lhsNonContracting := [0]
  rhsNonContracting := [1]
  lhsBatch := []
  rhsBatch := []
  wf := dot_S64x4_S4x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x2048_S2048x2_S64x2_1_0_0_1_n_n : DotDims S64x2048 S2048x2 S64x2 where
  lhsContracting := [1]
  rhsContracting := [0]
  lhsNonContracting := [0]
  rhsNonContracting := [1]
  lhsBatch := []
  rhsBatch := []
  wf := dot_S64x2048_S2048x2_S64x2_1_0_0_1_n_n_wf
def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf
def dot_S64x2048_S4x2048_S64x4_1_1_0_0_n_n : DotDims S64x2048 S4x2048 S64x4 where
  lhsContracting := [1]
  rhsContracting := [1]
  lhsNonContracting := [0]
  rhsNonContracting := [0]
  lhsBatch := []
  rhsBatch := []
  wf := dot_S64x2048_S4x2048_S64x4_1_1_0_0_n_n_wf

abbrev win0_0 : Pipeline.Window sig grid0 :=
  Pipeline.Window.ofSpec (Memref.whole main_arg0) S64x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S64x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x4 : Shape := ⟨2, ![65536, 4]⟩
abbrev S65536 : Shape := ⟨1, ![65536]⟩
abbrev S4x2048 : Shape := ⟨2, ![4, 2048]⟩
abbrev S2048 : Shape := ⟨1, ![2048]⟩
abbrev S2048x2048 : Shape := ⟨2, ![2048, 2048]⟩
abbrev S2048x2 : Shape := ⟨2, ![2048, 2]⟩
abbrev S2 : Shape := ⟨1, ![2]⟩
abbrev S65536x2048 : Shape := ⟨2, ![65536, 2048]⟩
abbrev S1x2048 : Shape := ⟨2, ![1, 2048]⟩
abbrev S65536x2 : Shape := ⟨2, ![65536, 2]⟩
abbrev S1x2 : Shape := ⟨2, ![1, 2]⟩
abbrev S65536x1 : Shape := ⟨2, ![65536, 1]⟩
abbrev S_ : Shape := ⟨0, ![]⟩

abbrev nBuf : Space → Nat
  | .hbm => 172
  | .vmem => 0
  | .smem => 0
  | _ => 0

abbrev hbmTy0_0 (i : Nat) : BufTy := match i % 128 with
  | 0 => ⟨S65536x4, .f32⟩
  | 1 => ⟨S65536, .f32⟩
  | 2 => ⟨S4x2048, .f32⟩
  | 3 => ⟨S2048, .f32⟩
  | 4 => ⟨S2048x2048, .f32⟩
  | 5 => ⟨S2048, .f32⟩
  | 6 => ⟨S2048x2, .f32⟩
  | 7 => ⟨S2, .f32⟩
  | 8 => ⟨S65536x2048, .f32⟩
  | 9 => ⟨S1x2048, .f32⟩
  | 10 => ⟨S65536x2048, .f32⟩
  | 11 => ⟨S65536x2048, .f32⟩
  | 12 => ⟨S65536x2048, .f32⟩
  | 13 => ⟨S65536x2048, .f32⟩
  | 14 => ⟨S1x2048, .f32⟩
  | 15 => ⟨S65536x2048, .f32⟩
  | 16 => ⟨S65536x2048, .f32⟩
  | 17 => ⟨S65536x2048, .f32⟩
  | 18 => ⟨S65536x2, .f32⟩
  | 19 => ⟨S1x2, .f32⟩
  | 20 => ⟨S65536x2, .f32⟩
  | 21 => ⟨S65536x2, .f32⟩
  | 22 => ⟨S65536x1, .f32⟩
  | 23 => ⟨S65536, .f32⟩
  | 24 => ⟨S65536x1, .f32⟩
  | 25 => ⟨S65536, .f32⟩
  | 26 => ⟨S65536x2048, .f32⟩
  | 27 => ⟨S1x2048, .f32⟩
  | 28 => ⟨S65536x2048, .f32⟩
  | 29 => ⟨S65536x2048, .f32⟩
  | 30 => ⟨S65536x2048, .f32⟩
  | 31 => ⟨S_, .f32⟩
  | 32 => ⟨S65536x2048, .f32⟩
  | 33 => ⟨S65536x2048, .f32⟩
  | 34 => ⟨S65536x2048, .f32⟩
  | 35 => ⟨S1x2048, .f32⟩
  | 36 => ⟨S65536x2048, .f32⟩
  | 37 => ⟨S65536x2048, .f32⟩
  | 38 => ⟨S65536x2048, .f32⟩
  | 39 => ⟨S_, .f32⟩
  | 40 => ⟨S65536x2048, .f32⟩
  | 41 => ⟨S65536x2048, .f32⟩
  | 42 => ⟨S65536x2, .f32⟩
  | 43 => ⟨S1x2, .f32⟩
  | 44 => ⟨S65536x2, .f32⟩
  | 45 => ⟨S65536x2, .f32⟩
  | 46 => ⟨S65536x1, .f32⟩
  | 47 => ⟨S65536, .f32⟩
  | 48 => ⟨S_, .f32⟩
  | 49 => ⟨S_, .f32⟩
  | 50 => ⟨S_, .f32⟩
  | 51 => ⟨S65536, .f32⟩
  | 52 => ⟨S65536x1, .f32⟩
  | 53 => ⟨S_, .f32⟩
  | 54 => ⟨S65536x2, .f32⟩
  | 55 => ⟨S65536x2048, .f32⟩
  | 56 => ⟨S65536x2048, .f32⟩
  | 57 => ⟨S65536x2048, .f32⟩
  | 58 => ⟨S65536x2048, .f32⟩
  | 59 => ⟨S65536x2048, .f32⟩
  | 60 => ⟨S65536x2048, .f32⟩
  | 61 => ⟨S65536x2048, .f32⟩
  | 62 => ⟨S65536x2048, .f32⟩
  | 63 => ⟨S65536x4, .f32⟩
  | 64 => ⟨S65536x1, .f32⟩
  | 65 => ⟨S65536, .f32⟩
  | 66 => ⟨S65536x1, .f32⟩
  | 67 => ⟨S65536, .f32⟩
  | 68 => ⟨S65536x1, .f32⟩
  | 69 => ⟨S65536, .f32⟩
  | 70 => ⟨S65536, .f32⟩
  | 71 => ⟨S65536, .f32⟩
  | 72 => ⟨S_, .f32⟩
  | 73 => ⟨S65536, .f32⟩
  | 74 => ⟨S65536, .f32⟩
  | 75 => ⟨S65536, .f32⟩
  | 76 => ⟨S_, .f32⟩
  | 77 => ⟨S65536, .f32⟩
  | 78 => ⟨S65536, .f32⟩
  | 79 => ⟨S_, .f32⟩
  | 80 => ⟨S65536, .f32⟩
  | 81 => ⟨S65536, .f32⟩
  | 82 => ⟨S65536, .f32⟩
  | 83 => ⟨S_, .f32⟩
  | 84 => ⟨S65536, .f32⟩
  | 85 => ⟨S65536, .f32⟩
  | 86 => ⟨S65536, .f32⟩
  | 87 => ⟨S_, .f32⟩
  | 88 => ⟨S65536, .f32⟩
  | 89 => ⟨S65536, .f32⟩
  | 90 => ⟨S65536, .f32⟩
  | 91 => ⟨S_, .f32⟩
  | 92 => ⟨S65536, .f32⟩
  | 93 => ⟨S65536, .f32⟩
  | 94 => ⟨S65536, .f32⟩
  | 95 => ⟨S65536, .f32⟩
  | 96 => ⟨S_, .f32⟩
  | 97 => ⟨S65536, .f32⟩
  | 98 => ⟨S65536, .f32⟩
  | 99 => ⟨S65536, .f32⟩
  | 100 => ⟨S65536, .f32⟩
  | 101 => ⟨S65536, .f32⟩
  | 102 => ⟨S65536, .f32⟩
  | 103 => ⟨S_, .f32⟩
  | 104 => ⟨S65536, .f32⟩
  | 105 => ⟨S65536, .f32⟩
  | 106 => ⟨S_, .f32⟩
  | 107 => ⟨S65536, .f32⟩
  | 108 => ⟨S65536, .f32⟩
  | 109 => ⟨S65536, .f32⟩
  | 110 => ⟨S65536, .f32⟩
  | 111 => ⟨S_, .f32⟩
  | 112 => ⟨S65536, .f32⟩
  | 113 => ⟨S65536, .f32⟩
  | 114 => ⟨S65536, .f32⟩
  | 115 => ⟨S_, .f32⟩
  | 116 => ⟨S65536, .f32⟩
  | 117 => ⟨S65536, .f32⟩
  | 118 => ⟨S65536, .f32⟩
  | 119 => ⟨S65536, .f32⟩
  | 120 => ⟨S65536, .f32⟩
  | 121 => ⟨S65536, .f32⟩
  | 122 => ⟨S65536, .f32⟩
  | 123 => ⟨S65536x1, .f32⟩
  | 124 => ⟨S65536x1, .f32⟩
  | 125 => ⟨S65536x1, .f32⟩
  | 126 => ⟨S65536x1, .f32⟩
  | 127 => ⟨S65536x4, .f32⟩
  | _ => ⟨S65536x4, .f32⟩

abbrev hbmTy0_1 (i : Nat) : BufTy := match i % 128 with
  | 0 => ⟨S65536x4, .f32⟩
  | 1 => ⟨S_, .f32⟩
  | 2 => ⟨S65536, .f32⟩
  | 3 => ⟨S_, .f32⟩
  | 4 => ⟨S65536, .f32⟩
  | 5 => ⟨S65536, .f32⟩
  | 6 => ⟨S65536, .f32⟩
  | 7 => ⟨S_, .f32⟩
  | 8 => ⟨S65536, .f32⟩
  | 9 => ⟨S65536, .f32⟩
  | 10 => ⟨S65536, .f32⟩
  | 11 => ⟨S65536, .f32⟩
  | 12 => ⟨S65536, .f32⟩
  | 13 => ⟨S_, .f32⟩
  | 14 => ⟨S_, .f32⟩
  | 15 => ⟨S_, .f32⟩
  | 16 => ⟨S_, .f32⟩
  | 17 => ⟨S65536, .f32⟩
  | 18 => ⟨S65536, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S65536, .f32⟩
  | 29 => ⟨S_, .f32⟩
  | 30 => ⟨S65536, .f32⟩
  | 31 => ⟨S65536, .f32⟩
  | 32 => ⟨S_, .f32⟩
  | 33 => ⟨S65536, .f32⟩
  | 34 => ⟨S65536, .f32⟩
  | 35 => ⟨S65536, .f32⟩
  | 36 => ⟨S65536, .f32⟩
  | 37 => ⟨S_, .f32⟩
  | 38 => ⟨S65536, .f32⟩
  | 39 => ⟨S65536, .f32⟩
  | 40 => ⟨S_, .f32⟩
  | 41 => ⟨S65536, .f32⟩
  | 42 => ⟨S65536, .f32⟩
  | 43 => ⟨S65536, .f32⟩
  | _ => ⟨S65536x4, .f32⟩

abbrev hbmTy (i : Nat) : BufTy := match i / 128 with
  | 0 => hbmTy0_0 i
  | 1 => hbmTy0_1 i
  | _ => ⟨S65536x4, .f32⟩

abbrev bufTy : (tb : Table) → Fin (tcTables nBuf tb) → BufTy
  | .hbm, ⟨i, _⟩ => hbmTy i
  | _, _ => ⟨S65536x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_0 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_5 : Ref sig .tc := ⟨.hbm, 76, rfl⟩
abbrev main_v62 : Ref sig .tc := ⟨.hbm, 77, rfl⟩
abbrev main_v63 : Ref sig .tc := ⟨.hbm, 78, rfl⟩
abbrev main_cst_6 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_10 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_11 : Ref sig .tc := ⟨.hbm, 103, rfl⟩
abbrev main_v83 : Ref sig .tc := ⟨.hbm, 104, rfl⟩
abbrev main_v84 : Ref sig .tc := ⟨.hbm, 105, rfl⟩
abbrev main_cst_12 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_cst_13 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_14 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_15 : Ref sig .tc := ⟨.hbm, 129, rfl⟩
abbrev main_v105 : Ref sig .tc := ⟨.hbm, 130, rfl⟩
abbrev main_cst_16 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_17 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_cst_18 : Ref sig .tc := ⟨.hbm, 141, rfl⟩
abbrev main_v114 : Ref sig .tc := ⟨.hbm, 142, rfl⟩
abbrev main_cst_19 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_20 : Ref sig .tc := ⟨.hbm, 147, rfl⟩
abbrev main_v118 : Ref sig .tc := ⟨.hbm, 148, rfl⟩
abbrev main_cst_21 : Ref sig .tc := ⟨.hbm, 149, rfl⟩
abbrev main_v119 : Ref sig .tc := ⟨.hbm, 150, rfl⟩
abbrev main_cst_22 : Ref sig .tc := ⟨.hbm, 151, rfl⟩
abbrev main_v120 : Ref sig .tc := ⟨.hbm, 152, rfl⟩
abbrev main_cst_23 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_call0_cst : Ref sig .tc := ⟨.hbm, 157, rfl⟩
abbrev main_call0_v0 : Ref sig .tc := ⟨.hbm, 158, rfl⟩
abbrev main_v124 : Ref sig .tc := ⟨.hbm, 159, rfl⟩
abbrev main_cst_24 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_call1_cst : Ref sig .tc := ⟨.hbm, 165, rfl⟩
abbrev main_call1_v0 : Ref sig .tc := ⟨.hbm, 166, rfl⟩
abbrev main_v129 : Ref sig .tc := ⟨.hbm, 167, rfl⟩
abbrev main_cst_25 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  slices_S65536x2_S65536x1_0_0 : S65536x2.Slices ![0, 0] S65536x1
  shapeCasts_S65536x1_S65536 : S65536x1.ShapeCasts S65536
  slices_S65536x2_S65536x1_0_1 : S65536x2.Slices ![0, 1] S65536x1
  bcast_S_S65536x2048 : S_.BroadcastsInDim S65536x2048 (![] : Fin 0 → Fin S65536x2048.rank)
  reducesTo_S65536_S_d0 : S65536.ReducesTo [0] S_
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  pads_S65536x1_S65536x2_000_100 : S65536x1.Pads (![0, 1] : Fin 2 → Nat) ![0, 0] ![0, 0] S65536x2
  slices_S65536x4_S65536x1_0_1 : S65536x4.Slices ![0, 1] S65536x1
  slices_S65536x4_S65536x1_0_2 : S65536x4.Slices ![0, 2] S65536x1
  slices_S65536x4_S65536x1_0_3 : S65536x4.Slices ![0, 3] S65536x1
  concatenates_S65536x1_S65536x1_S65536x1_S65536x1_S65536x4_d1 : Shape.Concatenates [S65536x1, S65536x1, S65536x1, S65536x1] S65536x4 1
  reducesTo_S65536x4_S65536_d1 : S65536x4.ReducesTo [1] S65536
  dot_S65536x4_S4x2048_S65536x2048_1_0_0_1_n_n_wf : DotDims.WF S65536x4 S4x2048 S65536x2048 [1] [0] [0] [1] [] []
  dot_S65536x2048_S2048x2048_S65536x2048_1_0_0_1_n_n_wf : DotDims.WF S65536x2048 S2048x2048 S65536x2048 [1] [0] [0] [1] [] []
  dot_S65536x2048_S2048x2_S65536x2_1_0_0_1_n_n_wf : DotDims.WF S65536x2048 S2048x2 S65536x2 [1] [0] [0] [1] [] []
  dot_S65536x2_S2048x2_S65536x2048_1_1_0_0_n_n_wf : DotDims.WF S65536x2 S2048x2 S65536x2048 [1] [1] [0] [0] [] []
  dot_S65536x2048_S2048x2048_S65536x2048_1_1_0_0_n_n_wf : DotDims.WF S65536x2048 S2048x2048 S65536x2048 [1] [1] [0] [0] [] []
  dot_S65536x2048_S4x2048_S65536x4_1_1_0_0_n_n_wf : DotDims.WF S65536x2048 S4x2048 S65536x4 [1] [1] [0] [0] [] []

variable [Facts₀]

def dot_S65536x4_S4x2048_S65536x2048_1_0_0_1_n_n : DotDims S65536x4 S4x2048 S65536x2048 where
  lhsContracting := [1]
  rhsContracting := [0]
  lhsNonContracting := [0]
  rhsNonContracting := [1]
  lhsBatch := []
  rhsBatch := []
  wf := dot_S65536x4_S4x2048_S65536x2048_1_0_0_1_n_n_wf
def dot_S65536x2048_S2048x2048_S65536x2048_1_0_0_1_n_n : DotDims S65536x2048 S2048x2048 S65536x2048 where
  lhsContracting := [1]
  rhsContracting := [0]
  lhsNonContracting := [0]
  rhsNonContracting := [1]
  lhsBatch := []
  rhsBatch := []
  wf := dot_S65536x2048_S2048x2048_S65536x2048_1_0_0_1_n_n_wf
def dot_S65536x2048_S2048x2_S65536x2_1_0_0_1_n_n : DotDims S65536x2048 S2048x2 S65536x2 where
  lhsContracting := [1]
  rhsContracting := [0]
  lhsNonContracting := [0]
  rhsNonContracting := [1]
  lhsBatch := []
  rhsBatch := []
  wf := dot_S65536x2048_S2048x2_S65536x2_1_0_0_1_n_n_wf
def dot_S65536x2_S2048x2_S65536x2048_1_1_0_0_n_n : DotDims S65536x2 S2048x2 S65536x2048 where
  lhsContracting := [1]
  rhsContracting := [1]
  lhsNonContracting := [0]
  rhsNonContracting := [0]
  lhsBatch := []
  rhsBatch := []
  wf := dot_S65536x2_S2048x2_S65536x2048_1_1_0_0_n_n_wf
def dot_S65536x2048_S2048x2048_S65536x2048_1_1_0_0_n_n : DotDims S65536x2048 S2048x2048 S65536x2048 where
  lhsContracting := [1]
  rhsContracting := [1]
  lhsNonContracting := [0]
  rhsNonContracting := [0]
  lhsBatch := []
  rhsBatch := []
  wf := dot_S65536x2048_S2048x2048_S65536x2048_1_1_0_0_n_n_wf
def dot_S65536x2048_S4x2048_S65536x4_1_1_0_0_n_n : DotDims S65536x2048 S4x2048 S65536x4 where
  lhsContracting := [1]
  rhsContracting := [1]
  lhsNonContracting := [0]
  rhsNonContracting := [0]
  lhsBatch := []
  rhsBatch := []
  wf := dot_S65536x2048_S4x2048_S65536x4_1_1_0_0_n_n_wf

class Facts : Prop extends Facts₀ where

variable [Facts]
-- ==== Proof.KMat.lean ====
/-
  The idealized kernel's five matrix products, each read at an output position as a finite sum over the
  contracted coordinate, and the layout operations between them read at coordinates: a column [a, 1] viewed as
  a vector [a] and back.
-/
import proofs.«114953_j21019569946955_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KMat

open Cert.KernelIdeal Cert.KernelIdeal.Gen Idealize.ShloMosaic Idealize.ShloMosaic.ValueIdx

variable {α : Type}

/-- A column [a, 1] viewed as a vector [a] reads, at i, the column at (i, 0): row i's row-major position i * 1 + 0 is i. -/
theorem cast_col_vec {a : ℕ} (x : (⟨2, ![a, 1]⟩ : Shape).Idx → α) (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] viewed as a column [a, 1] reads, at (i, u), the vector at i. -/
theorem cast_vec_col {a : ℕ} (x : (⟨1, ![a]⟩ : Shape).Idx → α) (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem mm_x_w1_l0 (i : S64x2048.Idx) (κ : dot_S64x4_S4x2048_S64x2048_1_0_0_1_n_n.contr.Idx) : (dot_S64x4_S4x2048_S64x2048_1_0_0_1_n_n.lhsIdx i κ 0).val = (i 0).val := by
  unfold DotDims.lhsIdx
  rw [dif_neg (show ¬(0 : Fin S64x4.rank) ∈ dot_S64x4_S4x2048_S64x2048_1_0_0_1_n_n.lhsBatch by decide), dif_pos (show (0 : Fin S64x4.rank) ∈ dot_S64x4_S4x2048_S64x2048_1_0_0_1_n_n.lhsNonContracting by decide)]
  rfl
theorem mm_x_w1_l1 (i : S64x2048.Idx) (κ : dot_S64x4_S4x2048_S64x2048_1_0_0_1_n_n.contr.Idx) : (dot_S64x4_S4x2048_S64x2048_1_0_0_1_n_n.lhsIdx i κ 1).val = (κ ⟨0, by decide⟩).val :=
  dot_S64x4_S4x2048_S64x2048_1_0_0_1_n_n.lhsIdx_val_of_single rfl i κ
theorem mm_x_w1_rc (i : S64x2048.Idx) (κ : dot_S64x4_S4x2048_S64x2048_1_0_0_1_n_n.contr.Idx) : (dot_S64x4_S4x2048_S64x2048_1_0_0_1_n_n.rhsIdx i κ 0).val = (κ ⟨0, by decide⟩).val :=
  dot_S64x4_S4x2048_S64x2048_1_0_0_1_n_n.rhsIdx_val_of_single rfl i κ
theorem mm_x_w1_rn (i : S64x2048.Idx) (κ : dot_S64x4_S4x2048_S64x2048_1_0_0_1_n_n.contr.Idx) : (dot_S64x4_S4x2048_S64x2048_1_0_0_1_n_n.rhsIdx i κ 1).val = (i 1).val := by
  unfold DotDims.rhsIdx
  rw [dif_neg (show ¬(1 : Fin S4x2048.rank) ∈ dot_S64x4_S4x2048_S64x2048_1_0_0_1_n_n.rhsBatch by decide), dif_pos (show (1 : Fin S4x2048.rank) ∈ dot_S64x4_S4x2048_S64x2048_1_0_0_1_n_n.rhsNonContracting by decide)]
  rfl

/-- The matrix product S64x4 · S4x2048 into a zero accumulator, at (p, q): the sum over the contracted coordinate. -/
theorem mm_x_w1 (l : FVec Ideal S64x4 .bf16) (r : FVec Ideal S4x2048 .bf16) (p : Fin 64) (q : Fin 2048) :
    matmul dot_S64x4_S4x2048_S64x2048_1_0_0_1_n_n none l r (constant S64x2048 .f32 0x00000000#32) (ix2 p q)
      = ∑ k : Fin 4, l (ix2 p k) * r (ix2 k q) := by
  refine (Ideal.matmul_constant_zero_apply dot_S64x4_S4x2048_S64x2048_1_0_0_1_n_n none l r (ix2 p q)).trans ?_
  rw [← Equiv.sum_comp (ValueIdx.contrEquiv1 dot_S64x4_S4x2048_S64x2048_1_0_0_1_n_n 4 rfl rfl).symm]
  refine Finset.sum_congr rfl fun k _ => ?_
  have hk := ValueIdx.contrEquiv1_symm_val dot_S64x4_S4x2048_S64x2048_1_0_0_1_n_n 4 rfl rfl k
  have el : dot_S64x4_S4x2048_S64x2048_1_0_0_1_n_n.lhsIdx (ix2 p q) ((ValueIdx.contrEquiv1 dot_S64x4_S4x2048_S64x2048_1_0_0_1_n_n 4 rfl rfl).symm k) = ix2 p k := funext fun a => Fin.ext (by
    match a with
    | ⟨0, _⟩ => exact mm_x_w1_l0 _ _
    | ⟨1, _⟩ => exact (mm_x_w1_l1 _ _).trans hk)
  have er : dot_S64x4_S4x2048_S64x2048_1_0_0_1_n_n.rhsIdx (ix2 p q) ((ValueIdx.contrEquiv1 dot_S64x4_S4x2048_S64x2048_1_0_0_1_n_n 4 rfl rfl).symm k) = ix2 k q := funext fun a => Fin.ext (by
    match a with
    | ⟨0, _⟩ => exact (mm_x_w1_rc _ _).trans hk
    | ⟨1, _⟩ => exact mm_x_w1_rn _ _)
  rw [el, er]

theorem mm_h_w2_l0 (i : S64x2048.Idx) (κ : dot_S64x2048_S2048x2048_S64x2048_1_0_0_1_n_n.contr.Idx) : (dot_S64x2048_S2048x2048_S64x2048_1_0_0_1_n_n.lhsIdx i κ 0).val = (i 0).val := by
  unfold DotDims.lhsIdx
  rw [dif_neg (show ¬(0 : Fin S64x2048.rank) ∈ dot_S64x2048_S2048x2048_S64x2048_1_0_0_1_n_n.lhsBatch by decide), dif_pos (show (0 : Fin S64x2048.rank) ∈ dot_S64x2048_S2048x2048_S64x2048_1_0_0_1_n_n.lhsNonContracting by decide)]
  rfl
theorem mm_h_w2_l1 (i : S64x2048.Idx) (κ : dot_S64x2048_S2048x2048_S64x2048_1_0_0_1_n_n.contr.Idx) : (dot_S64x2048_S2048x2048_S64x2048_1_0_0_1_n_n.lhsIdx i κ 1).val = (κ ⟨0, by decide⟩).val :=
  dot_S64x2048_S2048x2048_S64x2048_1_0_0_1_n_n.lhsIdx_val_of_single rfl i κ
theorem mm_h_w2_rc (i : S64x2048.Idx) (κ : dot_S64x2048_S2048x2048_S64x2048_1_0_0_1_n_n.contr.Idx) : (dot_S64x2048_S2048x2048_S64x2048_1_0_0_1_n_n.rhsIdx i κ 0).val = (κ ⟨0, by decide⟩).val :=
  dot_S64x2048_S2048x2048_S64x2048_1_0_0_1_n_n.rhsIdx_val_of_single rfl i κ
theorem mm_h_w2_rn (i : S64x2048.Idx) (κ : dot_S64x2048_S2048x2048_S64x2048_1_0_0_1_n_n.contr.Idx) : (dot_S64x2048_S2048x2048_S64x2048_1_0_0_1_n_n.rhsIdx i κ 1).val = (i 1).val := by
  unfold DotDims.rhsIdx
  rw [dif_neg (show ¬(1 : Fin S2048x2048.rank) ∈ dot_S64x2048_S2048x2048_S64x2048_1_0_0_1_n_n.rhsBatch by decide), dif_pos (show (1 : Fin S2048x2048.rank) ∈ dot_S64x2048_S2048x2048_S64x2048_1_0_0_1_n_n.rhsNonContracting by decide)]
  rfl

/-- The matrix product S64x2048 · S2048x2048 into a zero accumulator, at (p, q): the sum over the contracted coordinate. -/
theorem mm_h_w2 (l : FVec Ideal S64x2048 .bf16) (r : FVec Ideal S2048x2048 .bf16) (p : Fin 64) (q : Fin 2048) :
    matmul dot_S64x2048_S2048x2048_S64x2048_1_0_0_1_n_n none l r (constant S64x2048 .f32 0x00000000#32) (ix2 p q)
      = ∑ k : Fin 2048, l (ix2 p k) * r (ix2 k q) := by
  refine (Ideal.matmul_constant_zero_apply dot_S64x2048_S2048x2048_S64x2048_1_0_0_1_n_n none l r (ix2 p q)).trans ?_
  rw [← Equiv.sum_comp (ValueIdx.contrEquiv1 dot_S64x2048_S2048x2048_S64x2048_1_0_0_1_n_n 2048 rfl rfl).symm]
  refine Finset.sum_congr rfl fun k _ => ?_
  have hk := ValueIdx.contrEquiv1_symm_val dot_S64x2048_S2048x2048_S64x2048_1_0_0_1_n_n 2048 rfl rfl k
  have el : dot_S64x2048_S2048x2048_S64x2048_1_0_0_1_n_n.lhsIdx (ix2 p q) ((ValueIdx.contrEquiv1 dot_S64x2048_S2048x2048_S64x2048_1_0_0_1_n_n 2048 rfl rfl).symm k) = ix2 p k := funext fun a => Fin.ext (by
    match a with
    | ⟨0, _⟩ => exact mm_h_w2_l0 _ _
    | ⟨1, _⟩ => exact (mm_h_w2_l1 _ _).trans hk)
  have er : dot_S64x2048_S2048x2048_S64x2048_1_0_0_1_n_n.rhsIdx (ix2 p q) ((ValueIdx.contrEquiv1 dot_S64x2048_S2048x2048_S64x2048_1_0_0_1_n_n 2048 rfl rfl).symm k) = ix2 k q := funext fun a => Fin.ext (by
    match a with
    | ⟨0, _⟩ => exact (mm_h_w2_rc _ _).trans hk
    | ⟨1, _⟩ => exact mm_h_w2_rn _ _)
  rw [el, er]

theorem mm_h_w3_l0 (i : S64x2.Idx) (κ : dot_S64x2048_S2048x2_S64x2_1_0_0_1_n_n.contr.Idx) : (dot_S64x2048_S2048x2_S64x2_1_0_0_1_n_n.lhsIdx i κ 0).val = (i 0).val := by
  unfold DotDims.lhsIdx
  rw [dif_neg (show ¬(0 : Fin S64x2048.rank) ∈ dot_S64x2048_S2048x2_S64x2_1_0_0_1_n_n.lhsBatch by decide), dif_pos (show (0 : Fin S64x2048.rank) ∈ dot_S64x2048_S2048x2_S64x2_1_0_0_1_n_n.lhsNonContracting by decide)]
  rfl
theorem mm_h_w3_l1 (i : S64x2.Idx) (κ : dot_S64x2048_S2048x2_S64x2_1_0_0_1_n_n.contr.Idx) : (dot_S64x2048_S2048x2_S64x2_1_0_0_1_n_n.lhsIdx i κ 1).val = (κ ⟨0, by decide⟩).val :=
  dot_S64x2048_S2048x2_S64x2_1_0_0_1_n_n.lhsIdx_val_of_single rfl i κ
theorem mm_h_w3_rc (i : S64x2.Idx) (κ : dot_S64x2048_S2048x2_S64x2_1_0_0_1_n_n.contr.Idx) : (dot_S64x2048_S2048x2_S64x2_1_0_0_1_n_n.rhsIdx i κ 0).val = (κ ⟨0, by decide⟩).val :=
  dot_S64x2048_S2048x2_S64x2_1_0_0_1_n_n.rhsIdx_val_of_single rfl i κ
theorem mm_h_w3_rn (i : S64x2.Idx) (κ : dot_S64x2048_S2048x2_S64x2_1_0_0_1_n_n.contr.Idx) : (dot_S64x2048_S2048x2_S64x2_1_0_0_1_n_n.rhsIdx i κ 1).val = (i 1).val := by
  unfold DotDims.rhsIdx
  rw [dif_neg (show ¬(1 : Fin S2048x2.rank) ∈ dot_S64x2048_S2048x2_S64x2_1_0_0_1_n_n.rhsBatch by decide), dif_pos (show (1 : Fin S2048x2.rank) ∈ dot_S64x2048_S2048x2_S64x2_1_0_0_1_n_n.rhsNonContracting by decide)]
  rfl

/-- The matrix product S64x2048 · S2048x2 into a zero accumulator, at (p, q): the sum over the contracted coordinate. -/
theorem mm_h_w3 (l : FVec Ideal S64x2048 .bf16) (r : FVec Ideal S2048x2 .bf16) (p : Fin 64) (q : Fin 2) :
    matmul dot_S64x2048_S2048x2_S64x2_1_0_0_1_n_n none l r (constant S64x2 .f32 0x00000000#32) (ix2 p q)
      = ∑ k : Fin 2048, l (ix2 p k) * r (ix2 k q) := by
  refine (Ideal.matmul_constant_zero_apply dot_S64x2048_S2048x2_S64x2_1_0_0_1_n_n none l r (ix2 p q)).trans ?_
  rw [← Equiv.sum_comp (ValueIdx.contrEquiv1 dot_S64x2048_S2048x2_S64x2_1_0_0_1_n_n 2048 rfl rfl).symm]
  refine Finset.sum_congr rfl fun k _ => ?_
  have hk := ValueIdx.contrEquiv1_symm_val dot_S64x2048_S2048x2_S64x2_1_0_0_1_n_n 2048 rfl rfl k
  have el : dot_S64x2048_S2048x2_S64x2_1_0_0_1_n_n.lhsIdx (ix2 p q) ((ValueIdx.contrEquiv1 dot_S64x2048_S2048x2_S64x2_1_0_0_1_n_n 2048 rfl rfl).symm k) = ix2 p k := funext fun a => Fin.ext (by
    match a with
    | ⟨0, _⟩ => exact mm_h_w3_l0 _ _
    | ⟨1, _⟩ => exact (mm_h_w3_l1 _ _).trans hk)
  have er : dot_S64x2048_S2048x2_S64x2_1_0_0_1_n_n.rhsIdx (ix2 p q) ((ValueIdx.contrEquiv1 dot_S64x2048_S2048x2_S64x2_1_0_0_1_n_n 2048 rfl rfl).symm k) = ix2 k q := funext fun a => Fin.ext (by
    match a with
    | ⟨0, _⟩ => exact (mm_h_w3_rc _ _).trans hk
    | ⟨1, _⟩ => exact mm_h_w3_rn _ _)
  rw [el, er]

theorem mm_g_w2t_l0 (i : S64x2048.Idx) (κ : dot_S64x2048_S2048x2048_S64x2048_1_1_0_0_n_n.contr.Idx) : (dot_S64x2048_S2048x2048_S64x2048_1_1_0_0_n_n.lhsIdx i κ 0).val = (i 0).val := by
  unfold DotDims.lhsIdx
  rw [dif_neg (show ¬(0 : Fin S64x2048.rank) ∈ dot_S64x2048_S2048x2048_S64x2048_1_1_0_0_n_n.lhsBatch by decide), dif_pos (show (0 : Fin S64x2048.rank) ∈ dot_S64x2048_S2048x2048_S64x2048_1_1_0_0_n_n.lhsNonContracting by decide)]
  rfl
theorem mm_g_w2t_l1 (i : S64x2048.Idx) (κ : dot_S64x2048_S2048x2048_S64x2048_1_1_0_0_n_n.contr.Idx) : (dot_S64x2048_S2048x2048_S64x2048_1_1_0_0_n_n.lhsIdx i κ 1).val = (κ ⟨0, by decide⟩).val :=
  dot_S64x2048_S2048x2048_S64x2048_1_1_0_0_n_n.lhsIdx_val_of_single rfl i κ
theorem mm_g_w2t_rc (i : S64x2048.Idx) (κ : dot_S64x2048_S2048x2048_S64x2048_1_1_0_0_n_n.contr.Idx) : (dot_S64x2048_S2048x2048_S64x2048_1_1_0_0_n_n.rhsIdx i κ 1).val = (κ ⟨0, by decide⟩).val :=
  dot_S64x2048_S2048x2048_S64x2048_1_1_0_0_n_n.rhsIdx_val_of_single rfl i κ
theorem mm_g_w2t_rn (i : S64x2048.Idx) (κ : dot_S64x2048_S2048x2048_S64x2048_1_1_0_0_n_n.contr.Idx) : (dot_S64x2048_S2048x2048_S64x2048_1_1_0_0_n_n.rhsIdx i κ 0).val = (i 1).val := by
  unfold DotDims.rhsIdx
  rw [dif_neg (show ¬(0 : Fin S2048x2048.rank) ∈ dot_S64x2048_S2048x2048_S64x2048_1_1_0_0_n_n.rhsBatch by decide), dif_pos (show (0 : Fin S2048x2048.rank) ∈ dot_S64x2048_S2048x2048_S64x2048_1_1_0_0_n_n.rhsNonContracting by decide)]
  rfl

/-- The matrix product S64x2048 · S2048x2048ᵀ into a zero accumulator, at (p, q): the sum over the contracted coordinate. -/
theorem mm_g_w2t (l : FVec Ideal S64x2048 .bf16) (r : FVec Ideal S2048x2048 .bf16) (p : Fin 64) (q : Fin 2048) :
    matmul dot_S64x2048_S2048x2048_S64x2048_1_1_0_0_n_n none l r (constant S64x2048 .f32 0x00000000#32) (ix2 p q)
      = ∑ k : Fin 2048, l (ix2 p k) * r (ix2 q k) := by
  refine (Ideal.matmul_constant_zero_apply dot_S64x2048_S2048x2048_S64x2048_1_1_0_0_n_n none l r (ix2 p q)).trans ?_
  rw [← Equiv.sum_comp (ValueIdx.contrEquiv1 dot_S64x2048_S2048x2048_S64x2048_1_1_0_0_n_n 2048 rfl rfl).symm]
  refine Finset.sum_congr rfl fun k _ => ?_
  have hk := ValueIdx.contrEquiv1_symm_val dot_S64x2048_S2048x2048_S64x2048_1_1_0_0_n_n 2048 rfl rfl k
  have el : dot_S64x2048_S2048x2048_S64x2048_1_1_0_0_n_n.lhsIdx (ix2 p q) ((ValueIdx.contrEquiv1 dot_S64x2048_S2048x2048_S64x2048_1_1_0_0_n_n 2048 rfl rfl).symm k) = ix2 p k := funext fun a => Fin.ext (by
    match a with
    | ⟨0, _⟩ => exact mm_g_w2t_l0 _ _
    | ⟨1, _⟩ => exact (mm_g_w2t_l1 _ _).trans hk)
  have er : dot_S64x2048_S2048x2048_S64x2048_1_1_0_0_n_n.rhsIdx (ix2 p q) ((ValueIdx.contrEquiv1 dot_S64x2048_S2048x2048_S64x2048_1_1_0_0_n_n 2048 rfl rfl).symm k) = ix2 q k := funext fun a => Fin.ext (by
    match a with
    | ⟨1, _⟩ => exact (mm_g_w2t_rc _ _).trans hk
    | ⟨0, _⟩ => exact mm_g_w2t_rn _ _)
  rw [el, er]

theorem mm_g_w1t_l0 (i : S64x4.Idx) (κ : dot_S64x2048_S4x2048_S64x4_1_1_0_0_n_n.contr.Idx) : (dot_S64x2048_S4x2048_S64x4_1_1_0_0_n_n.lhsIdx i κ 0).val = (i 0).val := by
  unfold DotDims.lhsIdx
  rw [dif_neg (show ¬(0 : Fin S64x2048.rank) ∈ dot_S64x2048_S4x2048_S64x4_1_1_0_0_n_n.lhsBatch by decide), dif_pos (show (0 : Fin S64x2048.rank) ∈ dot_S64x2048_S4x2048_S64x4_1_1_0_0_n_n.lhsNonContracting by decide)]
  rfl
theorem mm_g_w1t_l1 (i : S64x4.Idx) (κ : dot_S64x2048_S4x2048_S64x4_1_1_0_0_n_n.contr.Idx) : (dot_S64x2048_S4x2048_S64x4_1_1_0_0_n_n.lhsIdx i κ 1).val = (κ ⟨0, by decide⟩).val :=
  dot_S64x2048_S4x2048_S64x4_1_1_0_0_n_n.lhsIdx_val_of_single rfl i κ
theorem mm_g_w1t_rc (i : S64x4.Idx) (κ : dot_S64x2048_S4x2048_S64x4_1_1_0_0_n_n.contr.Idx) : (dot_S64x2048_S4x2048_S64x4_1_1_0_0_n_n.rhsIdx i κ 1).val = (κ ⟨0, by decide⟩).val :=
  dot_S64x2048_S4x2048_S64x4_1_1_0_0_n_n.rhsIdx_val_of_single rfl i κ
theorem mm_g_w1t_rn (i : S64x4.Idx) (κ : dot_S64x2048_S4x2048_S64x4_1_1_0_0_n_n.contr.Idx) : (dot_S64x2048_S4x2048_S64x4_1_1_0_0_n_n.rhsIdx i κ 0).val = (i 1).val := by
  unfold DotDims.rhsIdx
  rw [dif_neg (show ¬(0 : Fin S4x2048.rank) ∈ dot_S64x2048_S4x2048_S64x4_1_1_0_0_n_n.rhsBatch by decide), dif_pos (show (0 : Fin S4x2048.rank) ∈ dot_S64x2048_S4x2048_S64x4_1_1_0_0_n_n.rhsNonContracting by decide)]
  rfl

/-- The matrix product S64x2048 · S4x2048ᵀ into a zero accumulator, at (p, q): the sum over the contracted coordinate. -/
theorem mm_g_w1t (l : FVec Ideal S64x2048 .bf16) (r : FVec Ideal S4x2048 .bf16) (p : Fin 64) (q : Fin 4) :
    matmul dot_S64x2048_S4x2048_S64x4_1_1_0_0_n_n none l r (constant S64x4 .f32 0x00000000#32) (ix2 p q)
      = ∑ k : Fin 2048, l (ix2 p k) * r (ix2 q k) := by
  refine (Ideal.matmul_constant_zero_apply dot_S64x2048_S4x2048_S64x4_1_1_0_0_n_n none l r (ix2 p q)).trans ?_
  rw [← Equiv.sum_comp (ValueIdx.contrEquiv1 dot_S64x2048_S4x2048_S64x4_1_1_0_0_n_n 2048 rfl rfl).symm]
  refine Finset.sum_congr rfl fun k _ => ?_
  have hk := ValueIdx.contrEquiv1_symm_val dot_S64x2048_S4x2048_S64x4_1_1_0_0_n_n 2048 rfl rfl k
  have el : dot_S64x2048_S4x2048_S64x4_1_1_0_0_n_n.lhsIdx (ix2 p q) ((ValueIdx.contrEquiv1 dot_S64x2048_S4x2048_S64x4_1_1_0_0_n_n 2048 rfl rfl).symm k) = ix2 p k := funext fun a => Fin.ext (by
    match a with
    | ⟨0, _⟩ => exact mm_g_w1t_l0 _ _
    | ⟨1, _⟩ => exact (mm_g_w1t_l1 _ _).trans hk)
  have er : dot_S64x2048_S4x2048_S64x4_1_1_0_0_n_n.rhsIdx (ix2 p q) ((ValueIdx.contrEquiv1 dot_S64x2048_S4x2048_S64x4_1_1_0_0_n_n 2048 rfl rfl).symm k) = ix2 q k := funext fun a => Fin.ext (by
    match a with
    | ⟨1, _⟩ => exact (mm_g_w1t_rc _ _).trans hk
    | ⟨0, _⟩ => exact mm_g_w1t_rn _ _)
  rw [el, er]

end Cert.KMat

end
-- ==== Proof.Spec.lean ====
/-
  The mathematics both programs compute, row by row, over the extended reals.

  A sample is one row x of four numbers. A three-layer network with tanh activations maps it to two numbers,
  (y_pred, V): a1 = tanh (x W1 + b1), a2 = tanh (a1 W2 + b2), z = a2 W3 + b3. The gradient of V with respect to
  x is pulled back through the layers: at the output the upstream gradient selects column 1 of W3; through a tanh
  whose value is a the gradient g becomes g (1 - a^2); through a linear layer with weights W it becomes g W^T.
  One program writes the tanh step as g * (1 - a * a) (dtanhK), the other as g * (1 - a) + g * (1 - a) * a
  (dtanhR): the same real number whenever g and a are real, since (1 - a) (1 + a) = 1 - a^2.
  The rest — the pendulum's accelerations, the directional derivative, the two penalties and the batch loss — is
  spelt identically by both, up to the grouping of a four-term and a three-term sum.
-/
import Idealize.ShloMosaic.PureOps.Ideal
import Idealize.ShloMosaic.PureOps.Ideal.Laws
import Idealize.ShloMosaic.Lib.ValueIdx

noncomputable section

namespace Cert.Spec

open Idealize.ShloMosaic

/-- A linear layer on one row: a W + b at output coordinate j. -/
def affine {n p : ℕ} (a : Fin n → EReal) (W : Fin n → Fin p → EReal) (b : Fin p → EReal) (j : Fin p) : EReal :=
  (∑ k : Fin n, a k * W k j) + b j

/-- A linear layer followed by tanh. -/
def act {n p : ℕ} (a : Fin n → EReal) (W : Fin n → Fin p → EReal) (b : Fin p → EReal) (j : Fin p) : EReal :=
  Ideal.tanh (affine a W b j)

/-- A gradient row pulled back through a linear layer: g W^T at input coordinate i. -/
def pullT {n p : ℕ} (g : Fin p → EReal) (W : Fin n → Fin p → EReal) (i : Fin n) : EReal :=
  ∑ j : Fin p, g j * W i j

/-- The gradient through a tanh of value a, written g (1 - a a). -/
def dtanhK (g a : EReal) : EReal := g * (Ideal.ofBits .f32 0x3F800000#32 - a * a)

/-- The gradient through a tanh of value a, written g (1 - a) + g (1 - a) a. -/
def dtanhR (g a : EReal) : EReal := g * (Ideal.ofBits .f32 0x3F800000#32 - a) + g * (Ideal.ofBits .f32 0x3F800000#32 - a) * a

/-- The upstream gradient at the network's output: 0 at column 0, 1 at column 1. -/
def onehot (c : Fin 2) : EReal := if c.val = 0 then Ideal.ofBits .f32 0x00000000#32 else Ideal.ofBits .f32 0x3F800000#32

section net
variable (x : Fin 4 → EReal) (W1 : Fin 4 → Fin 2048 → EReal) (b1 : Fin 2048 → EReal)
  (W2 : Fin 2048 → Fin 2048 → EReal) (b2 : Fin 2048 → EReal) (W3 : Fin 2048 → Fin 2 → EReal) (b3 : Fin 2 → EReal)

/-- The first hidden layer's activations. -/
def a1 : Fin 2048 → EReal := act x W1 b1
/-- The second hidden layer's activations. -/
def a2 : Fin 2048 → EReal := act (a1 x W1 b1) W2 b2
/-- The network's two outputs. -/
def z3 : Fin 2 → EReal := affine (a2 x W1 b1 W2 b2) W3 b3

/-- dV/dz2, the first form. -/
def g2K (j : Fin 2048) : EReal := dtanhK (W3 j 1) (a2 x W1 b1 W2 b2 j)
/-- dV/dz1, the first form. -/
def g1K (i : Fin 2048) : EReal := dtanhK (pullT (g2K x W1 b1 W2 b2 W3) W2 i) (a1 x W1 b1 i)
/-- dV/dx, the first form. -/
def dvK (k : Fin 4) : EReal := pullT (g1K x W1 b1 W2 b2 W3) W1 k

/-- dV/dz2, the second form. -/
def g2R (j : Fin 2048) : EReal := dtanhR (pullT onehot W3 j) (a2 x W1 b1 W2 b2 j)
/-- dV/dz1, the second form. -/
def g1R (i : Fin 2048) : EReal := dtanhR (pullT (g2R x W1 b1 W2 b2 W3) W2 i) (a1 x W1 b1 i)
/-- dV/dx, the second form. -/
def dvR (k : Fin 4) : EReal := pullT (g1R x W1 b1 W2 b2 W3) W1 k
end net

section pendulum
variable (x : Fin 4 → EReal) (u : EReal)

/-- The common denominator C2 C3 - C1^2 cos^2 of the two accelerations. -/
def den : EReal :=
  Ideal.ofBits .f32 0x4105C28F#32 - Ideal.ofBits .f32 0x3DB851EC#32 * Ideal.cos (x 2) * Ideal.cos (x 2)
/-- The force on the cart: the control u less friction. -/
def force : EReal := u - Ideal.ofBits .f32 0x3E4CCCCD#32 * x 1
/-- The cart's acceleration. -/
def acc2 : EReal :=
  Ideal.div (Ideal.ofBits .f32 0x3F61CAC1#32 * Ideal.cos (x 2) * Ideal.sin (x 2)
      + Ideal.ofBits .f32 0x4005C28F#32 * force x u
      - Ideal.ofBits .f32 0x3D75C28F#32 * Ideal.cos (x 2) * x 3
      - Ideal.ofBits .f32 0x3F208312#32 * Ideal.sin (x 2) * x 3 * x 3) (den x)
/-- The pendulum's angular acceleration. -/
def acc4 : EReal :=
  Ideal.div (Ideal.ofBits .f32 0x413C28F6#32 * Ideal.sin (x 2)
      + Ideal.ofBits .f32 0x3E99999A#32 * Ideal.cos (x 2) * force x u
      - Ideal.ofBits .f32 0x3F4CCCCD#32 * x 3
      - Ideal.ofBits .f32 0x3DB851EC#32 * Ideal.cos (x 2) * Ideal.sin (x 2) * x 3 * x 3) (den x)

/-- The state's time derivative (x2, x2', x4, x4'). -/
def xdot (k : Fin 4) : EReal := ![x 1, acc2 x u, x 3, acc4 x u] k

/-- The derivative of V along the flow, the four terms added left to right. -/
def vdotK (dv : Fin 4 → EReal) : EReal :=
  dv 0 * x 1 + dv 1 * acc2 x u + dv 2 * x 3 + dv 3 * acc4 x u
/-- The same as a sum over the four coordinates started from zero. -/
def vdotR (dv : Fin 4 → EReal) : EReal := Ideal.ofBits .f32 0x00000000#32 + ∑ k : Fin 4, dv k * xdot x u k
end pendulum

/-- The two penalties of one sample, added to each other first. -/
def penK (V vd : EReal) : EReal :=
  Ideal.ofBits .f32 0x461C4000#32 * max (Ideal.ofBits .f32 0x00000000#32 - V) (Ideal.ofBits .f32 0x00000000#32) + Ideal.ofBits .f32 0x461C4000#32 * max vd (Ideal.ofBits .f32 0x00000000#32)

/-- The batch loss: 0.1 · mean of squared log-differences + 0.9 · mean of squared differences. -/
def custom (yp y : (⟨1, ![65536]⟩ : Shape).Idx → EReal) : EReal :=
  Ideal.ofBits .f32 0x3DCCCCCD#32 *
      Ideal.div (Ideal.ofBits .f32 0x00000000#32 + ∑ i : (⟨1, ![65536]⟩ : Shape).Idx,
          (Ideal.log1p (max (yp i) (Ideal.ofBits .f32 0x33D6BF95#32)) - Ideal.log1p (max (y i) (Ideal.ofBits .f32 0x33D6BF95#32)))
            * (Ideal.log1p (max (yp i) (Ideal.ofBits .f32 0x33D6BF95#32)) - Ideal.log1p (max (y i) (Ideal.ofBits .f32 0x33D6BF95#32))))
        (Ideal.ofBits .f32 0x47800000#32)
    + Ideal.ofBits .f32 0x3F666666#32 *
      Ideal.div (Ideal.ofBits .f32 0x00000000#32 + ∑ i : (⟨1, ![65536]⟩ : Shape).Idx, (y i - yp i) * (y i - yp i)) (Ideal.ofBits .f32 0x47800000#32)

/-- One sample's result in the first program's grouping: loss + (penalty + penalty). -/
def resK (c V vd : EReal) : EReal := c + penK V vd
/-- One sample's result in the second program's grouping: (loss + penalty) + penalty. -/
def resR (c V vd : EReal) : EReal :=
  c + Ideal.ofBits .f32 0x461C4000#32 * max (-V) (Ideal.ofBits .f32 0x00000000#32) + Ideal.ofBits .f32 0x461C4000#32 * max vd (Ideal.ofBits .f32 0x00000000#32)

/-- Every entry of an array is a real number (neither infinity). -/
def IsReal {ι : Type} (f : ι → EReal) : Prop := ∀ i, ∃ r : ℝ, f i = (r : EReal)

/-- A matrix stored as an array over index pairs, read as a function of its two coordinates. -/
def mat {n p : ℕ} (W : (⟨2, ![n, p]⟩ : Shape).Idx → EReal) (k : Fin n) (j : Fin p) : EReal := W (ValueIdx.ix2 k j)
/-- A vector stored as an array, read as a function of its coordinate. -/
def vec {n : ℕ} (v : (⟨1, ![n]⟩ : Shape).Idx → EReal) (j : Fin n) : EReal := v (ValueIdx.ix1 j)

section batch
variable (X : (⟨2, ![65536, 4]⟩ : Shape).Idx → EReal) (Y : (⟨1, ![65536]⟩ : Shape).Idx → EReal)
  (W1 : (⟨2, ![4, 2048]⟩ : Shape).Idx → EReal) (B1 : (⟨1, ![2048]⟩ : Shape).Idx → EReal)
  (W2 : (⟨2, ![2048, 2048]⟩ : Shape).Idx → EReal) (B2 : (⟨1, ![2048]⟩ : Shape).Idx → EReal)
  (W3 : (⟨2, ![2048, 2]⟩ : Shape).Idx → EReal) (B3 : (⟨1, ![2]⟩ : Shape).Idx → EReal)

/-- Sample b of the batch: row b of X. -/
def rowOf (b : Fin 65536) (k : Fin 4) : EReal := X (ValueIdx.ix2 b k)

/-- Sample b's prediction y_pred. -/
def ypRow (b : Fin 65536) : EReal := z3 (rowOf X b) (mat W1) (vec B1) (mat W2) (vec B2) (mat W3) (vec B3) 0
/-- Sample b's Lyapunov value V. -/
def vRow (b : Fin 65536) : EReal := z3 (rowOf X b) (mat W1) (vec B1) (mat W2) (vec B2) (mat W3) (vec B3) 1
/-- The predictions as an array over the batch. -/
def ypArr (i : (⟨1, ![65536]⟩ : Shape).Idx) : EReal := ypRow X W1 B1 W2 B2 W3 B3 ⟨(i 0).val, (i 0).isLt⟩
/-- Sample b's gradient dV/dx, first form. -/
def dvKRow (b : Fin 65536) : Fin 4 → EReal := dvK (rowOf X b) (mat W1) (vec B1) (mat W2) (vec B2) (mat W3)
/-- Sample b's gradient dV/dx, second form. -/
def dvRRow (b : Fin 65536) : Fin 4 → EReal := dvR (rowOf X b) (mat W1) (vec B1) (mat W2) (vec B2) (mat W3)
/-- Sample b's two penalties, first form. -/
def penRow (b : Fin 65536) : EReal :=
  penK (vRow X W1 B1 W2 B2 W3 B3 b) (vdotK (rowOf X b) (ypRow X W1 B1 W2 B2 W3 B3 b) (dvKRow X W1 B1 W2 B2 W3 b))
/-- The [65536, 2] array of per-sample (y_pred, penalty). -/
def region (i : (⟨2, ![65536, 2]⟩ : Shape).Idx) : EReal :=
  if (i 1).val = 0 then ypRow X W1 B1 W2 B2 W3 B3 ⟨(i 0).val, (i 0).isLt⟩ else penRow X W1 B1 W2 B2 W3 B3 ⟨(i 0).val, (i 0).isLt⟩

/-- Sample b's result, first grouping and first gradient form. -/
def outK (b : Fin 65536) : EReal :=
  resK (custom (ypArr X W1 B1 W2 B2 W3 B3) Y) (vRow X W1 B1 W2 B2 W3 B3 b)
    (vdotK (rowOf X b) (ypRow X W1 B1 W2 B2 W3 B3 b) (dvKRow X W1 B1 W2 B2 W3 b))
/-- Sample b's result, second grouping and second gradient form. -/
def outR (b : Fin 65536) : EReal :=
  resR (custom (ypArr X W1 B1 W2 B2 W3 B3) Y) (vRow X W1 B1 W2 B2 W3 B3 b)
    (vdotR (rowOf X b) (ypRow X W1 B1 W2 B2 W3 B3 b) (dvRRow X W1 B1 W2 B2 W3 b))
end batch

end Cert.Spec

end
-- ==== Proof.KPay.lean ====
/-
  The idealized kernel's block computation read one sample at a time. The body loads a [64, 4] block of samples
  and the whole weight arrays, and stores a [64, 2] block. Every operation of the body acts row by row: the
  matrix products contract over the feature axis, the biases are broadcast along the rows, everything else is
  elementwise. So row r of what is stored is the per-sample function of row r of the loaded block: column 0 the
  prediction, column 1 the two penalties.
-/
import proofs.«114953_j21019569946955_2_alg».proof.Proof.KMat
import proofs.«114953_j21019569946955_2_alg».proof.Proof.Spec

noncomputable section

namespace Cert.KPay

open Cert.KernelIdeal Cert.KernelIdeal.Gen Idealize.ShloMosaic Idealize.ShloMosaic.ValueIdx Cert.KMat

variable {α : Type}

/-- Row r of a loaded block of samples. -/
def xrow (v : (⟨2, ![64, 4]⟩ : Shape).Idx → EReal) (r : Fin 64) (k : Fin 4) : EReal := v (ix2 r k)
/-- A bias stored as a one-row matrix, read as a vector. -/
def brow {p : ℕ} (v : (⟨2, ![1, p]⟩ : Shape).Idx → EReal) (j : Fin p) : EReal := v (ix2 (0 : Fin 1) j)

/-- Column k of a matrix, cut out as a column and viewed as a vector, reads at row r the matrix at (r, k). -/
theorem col_at {a n : ℕ} (o : ℕ) (X : (⟨2, ![a, n]⟩ : Shape).Idx → α) (h : (⟨2, ![a, n]⟩ : Shape).Slices ![0, o] ⟨2, ![a, 1]⟩)
    (h' : (⟨2, ![a, 1]⟩ : Shape).ShapeCasts ⟨1, ![a]⟩) (r : Fin a) (k : Fin n) (hk : k.val = o) :
    shapeCast ⟨1, ![a]⟩ (extractStridedSlice ⟨2, ![a, 1]⟩ ![0, o] X h) h' (ix1 r) = X (ix2 r k) :=
  (cast_col_vec _ _ r).trans (slice2_axis1_apply o X h r (0 : Fin 1) k (by rw [hk]; rfl))

section forward
variable (v0 : Vec Ideal S64x4 .f32) (v2 : Vec Ideal S4x2048 .bf16) (v5 : Vec Ideal S1x2048 .f32)
  (v11 : Vec Ideal S2048x2048 .bf16) (v14 : Vec Ideal S1x2048 .f32) (v20 : Vec Ideal S2048x2 .bf16) (v23 : Vec Ideal S1x2 .f32)

/-- The first hidden layer of row r. -/
theorem pay3_at (r : Fin 64) (j : Fin 2048) :
    k0_pay3 (F := Ideal) v0 v2 v5 (ix2 r j) = Spec.a1 (xrow v0 r) (Spec.mat v2) (brow v5) j := by
  unfold k0_pay3 k0_pay2 Spec.a1 Spec.act Spec.affine
  refine congrArg Ideal.tanh ?_
  refine congrArg₂ (· + ·) ?_ ?_
  · refine (mm_x_w1 _ _ r j).trans ?_
    refine Finset.sum_congr rfl fun k _ => ?_
    rw [shapeCast_self]; rfl
  · refine (broadcastTo_1b_ab_apply _ _ r j).trans ?_
    rw [shapeCast_self]; rfl

/-- The second hidden layer of row r. -/
theorem pay5_at (r : Fin 64) (j : Fin 2048) :
    k0_pay5 (F := Ideal) v0 v2 v5 v11 v14 (ix2 r j) = Spec.a2 (xrow v0 r) (Spec.mat v2) (brow v5) (Spec.mat v11) (brow v14) j := by
  unfold k0_pay5 k0_pay4 Spec.a2 Spec.act Spec.affine
  refine congrArg Ideal.tanh ?_
  refine congrArg₂ (· + ·) ?_ ?_
  · refine (mm_h_w2 _ _ r j).trans ?_
    refine Finset.sum_congr rfl fun k _ => ?_
    refine congrArg₂ (· * ·) (pay3_at v0 v2 v5 r k) ?_
    rw [shapeCast_self]; rfl
  · refine (broadcastTo_1b_ab_apply _ _ r j).trans ?_
    rw [shapeCast_self]; rfl

/-- The network's two outputs for row r. -/
theorem pay7_at (r : Fin 64) (c : Fin 2) :
    k0_pay7 (F := Ideal) v0 v2 v5 v11 v14 v20 v23 (ix2 r c)
      = Spec.z3 (xrow v0 r) (Spec.mat v2) (brow v5) (Spec.mat v11) (brow v14) (Spec.mat v20) (brow v23) c := by
  unfold k0_pay7 k0_pay6 Spec.z3 Spec.affine
  refine congrArg₂ (· + ·) ?_ ?_
  · refine (mm_h_w3 _ _ r c).trans ?_
    refine Finset.sum_congr rfl fun k _ => ?_
    refine congrArg₂ (· * ·) (pay5_at v0 v2 v5 v11 v14 r k) ?_
    rw [shapeCast_self]; rfl
  · refine (broadcastTo_1b_ab_apply _ _ r c).trans ?_
    rw [shapeCast_self]; rfl

/-- Row r's prediction. -/
theorem pay8_at (r : Fin 64) :
    k0_pay8 (F := Ideal) v0 v2 v5 v11 v14 v20 v23 (ix1 r)
      = Spec.z3 (xrow v0 r) (Spec.mat v2) (brow v5) (Spec.mat v11) (brow v14) (Spec.mat v20) (brow v23) 0 := by
  unfold k0_pay8
  exact (col_at 0 _ _ _ r (0 : Fin 2) rfl).trans (pay7_at v0 v2 v5 v11 v14 v20 v23 r 0)

/-- Row r's value V. -/
theorem pay9_at (r : Fin 64) :
    k0_pay9 (F := Ideal) v0 v2 v5 v11 v14 v20 v23 (ix1 r)
      = Spec.z3 (xrow v0 r) (Spec.mat v2) (brow v5) (Spec.mat v11) (brow v14) (Spec.mat v20) (brow v23) 1 := by
  unfold k0_pay9
  exact (col_at 1 _ _ _ r (1 : Fin 2) rfl).trans (pay7_at v0 v2 v5 v11 v14 v20 v23 r 1)

/-- Row r's gradient at the second hidden layer's pre-activations: column 1 of W3 times 1 - a2². -/
theorem pay10_at (r : Fin 64) (j : Fin 2048) :
    k0_pay10 (F := Ideal) v0 v2 v5 v11 v14 v20 (ix2 r j)
      = Spec.g2K (xrow v0 r) (Spec.mat v2) (brow v5) (Spec.mat v11) (brow v14) (Spec.mat v20) j := by
  unfold k0_pay10 k0_pay6 Spec.g2K Spec.dtanhK
  refine congrArg₂ (· * ·) ?_ ?_
  · refine (broadcastTo_1b_ab_apply _ _ r j).trans ?_
    rw [shapeCast_self]
    refine (shapeCast_a_1a_apply _ _ (0 : Fin 1) j).trans ?_
    have hx : ∀ (w : FVec Ideal S2048 .bf16) (h : FTy.bits .bf16 < FTy.bits .f32), (extf .f32 w h : FVec Ideal S2048 .f32) (ix1 j) = w (ix1 j) := fun _ _ => rfl
    refine (hx _ _).trans ?_
    refine (col_at 1 _ _ _ j (1 : Fin 2) rfl).trans ?_
    rw [shapeCast_self]; rfl
  · refine congrArg₂ (· - ·) rfl ?_
    exact congrArg₂ (· * ·) (pay5_at v0 v2 v5 v11 v14 r j) (pay5_at v0 v2 v5 v11 v14 r j)
end forward

/-- The two pull-backs, for any gradient block v40, activations v9 and weights v12, v3: row r of the result is
    the row's gradient pulled through W2ᵀ, through the first tanh, and through W1ᵀ. -/
theorem pay11_at (v3 : FVec Ideal S4x2048 .bf16) (v9 : FVec Ideal S64x2048 .f32) (v12 : FVec Ideal S2048x2048 .bf16)
    (v40 : FVec Ideal S64x2048 .f32) (r : Fin 64) (k : Fin 4) :
    k0_pay11 (F := Ideal) v3 v9 v12 v40 (ix2 r k)
      = Spec.pullT (fun i => Spec.dtanhK (Spec.pullT (fun j => v40 (ix2 r j)) (Spec.mat v12) i) (v9 (ix2 r i))) (Spec.mat v3) k := by
  unfold k0_pay11 Spec.pullT Spec.dtanhK
  refine (mm_g_w1t _ _ r k).trans ?_
  refine Finset.sum_congr rfl fun i _ => ?_
  refine congrArg₂ (fun a b : EReal => a * b) ?_ rfl
  refine congrArg₂ (fun a b : EReal => a * b) ?_ rfl
  exact mm_g_w2t _ _ r i

end Cert.KPay

end
-- ==== Proof.KPen.lean ====
/-
  The last stretch of the idealized kernel's block computation, read one sample at a time: the pendulum's two
  accelerations, the derivative of V along the flow and the two penalties, and the [64, 2] block that is stored —
  column 0 the prediction, column 1 the penalties. Every operation here is elementwise on vectors of 64 samples,
  except for cutting column k out of a [64, 4] block and viewing it as a vector, viewing a vector as a column,
  and laying two columns side by side. So entry r of each vector is the per-sample expression at row r, operation
  for operation: no algebra is needed.
-/
import proofs.«114953_j21019569946955_2_alg».proof.Proof.KMat
import proofs.«114953_j21019569946955_2_alg».proof.Proof.Spec

noncomputable section

namespace Cert.KPen

open Cert.KernelIdeal Cert.KernelIdeal.Gen Idealize.ShloMosaic Idealize.ShloMosaic.ValueIdx Cert.KMat

variable {α : Type}

/-! ### Layout: a column of a block as a vector, and two columns side by side -/

/-- Column k of a matrix, cut out as a column and viewed as a vector, reads at row r the matrix at (r, k). -/
theorem col_at {a n : ℕ} (o : ℕ) (X : (⟨2, ![a, n]⟩ : Shape).Idx → α)
    (h : (⟨2, ![a, n]⟩ : Shape).Slices ![0, o] ⟨2, ![a, 1]⟩) (h' : (⟨2, ![a, 1]⟩ : Shape).ShapeCasts ⟨1, ![a]⟩)
    (r : Fin a) (k : Fin n) (hk : k.val = o) :
    shapeCast ⟨1, ![a]⟩ (extractStridedSlice ⟨2, ![a, 1]⟩ ![0, o] X h) h' (ix1 r) = X (ix2 r k) :=
  (cast_col_vec _ h' r).trans (slice2_axis1_apply o X h r (0 : Fin 1) k (by rw [hk]; rfl))

/-- Two columns laid side by side: column 0 of the result is the first. -/
theorem cat_left (x₁ x₂ : S64x1.Idx → α) (h : Shape.Concatenates [S64x1, S64x1] S64x2 1) (r : Fin 64) :
    concatenate S64x2 1 [⟨S64x1, x₁⟩, ⟨S64x1, x₂⟩] h (ix2 r (0 : Fin 2)) = x₁ (ix2 r (0 : Fin 1)) :=
  concatenate_pair_apply_left 1 x₁ x₂ h _ rfl _ fun b => by
    match b with
    | ⟨0, _⟩ => rfl
    | ⟨1, _⟩ => rfl

/-- Two columns laid side by side: column 1 of the result is the second. -/
theorem cat_right (x₁ x₂ : S64x1.Idx → α) (h : Shape.Concatenates [S64x1, S64x1] S64x2 1) (r : Fin 64) :
    concatenate S64x2 1 [⟨S64x1, x₁⟩, ⟨S64x1, x₂⟩] h (ix2 r (1 : Fin 2)) = x₂ (ix2 r (0 : Fin 1)) :=
  concatenate_pair_apply_right 1 x₁ x₂ h _ rfl rfl _
    (fun b hb => by
      match b with
      | ⟨0, _⟩ => rfl
      | ⟨1, _⟩ => exact absurd rfl hb)
    rfl

/-! ### The pendulum's terms at row r -/

section pendulum
variable (v0 : Vec Ideal S64x4 .f32) (v28 : FVec Ideal S64 .f32) (r : Fin 64)

/-- Row r's coordinate 1. -/
theorem pay12_at : k0_pay12 (F := Ideal) v0 (ix1 r) = v0 (ix2 r 1) := by
  unfold k0_pay12
  exact col_at 1 _ _ _ r (1 : Fin 4) rfl

/-- Row r's coordinate 2. -/
theorem pay13_at : k0_pay13 (F := Ideal) v0 (ix1 r) = v0 (ix2 r 2) := by
  unfold k0_pay13
  exact col_at 2 _ _ _ r (2 : Fin 4) rfl

/-- Row r's coordinate 3. -/
theorem pay14_at : k0_pay14 (F := Ideal) v0 (ix1 r) = v0 (ix2 r 3) := by
  unfold k0_pay14
  exact col_at 3 _ _ _ r (3 : Fin 4) rfl

/-- The cosine of row r's angle. -/
theorem pay15_at : k0_pay15 (F := Ideal) v0 (ix1 r) = Ideal.cos (v0 (ix2 r 2)) := by
  unfold k0_pay15
  exact congrArg Ideal.cos (pay13_at v0 r)

/-- The sine of row r's angle. -/
theorem pay16_at : k0_pay16 (F := Ideal) v0 (ix1 r) = Ideal.sin (v0 (ix2 r 2)) := by
  unfold k0_pay16
  exact congrArg Ideal.sin (pay13_at v0 r)

/-- The accelerations' common denominator at row r. -/
theorem pay17_at : k0_pay17 (F := Ideal) v0 (ix1 r) = Spec.den (fun k => v0 (ix2 r k)) := by
  unfold k0_pay17 Spec.den
  refine congrArg₂ (fun a b : EReal => a - b) rfl ?_
  refine congrArg₂ (fun a b : EReal => a * b) ?_ (pay15_at v0 r)
  exact congrArg₂ (fun a b : EReal => a * b) rfl (pay15_at v0 r)

/-- The force on the cart at row r, the control being the prediction. -/
theorem pay18_at : k0_pay18 (F := Ideal) v0 v28 (ix1 r) = Spec.force (fun k => v0 (ix2 r k)) (v28 (ix1 r)) := by
  unfold k0_pay18 Spec.force
  refine congrArg₂ (fun a b : EReal => a - b) rfl ?_
  exact congrArg₂ (fun a b : EReal => a * b) rfl (pay12_at v0 r)

/-- The cart's acceleration at row r. -/
theorem pay19_at : k0_pay19 (F := Ideal) v0 v28 (ix1 r) = Spec.acc2 (fun k => v0 (ix2 r k)) (v28 (ix1 r)) := by
  unfold k0_pay19 Spec.acc2
  refine congrArg₂ Ideal.div ?_ (pay17_at v0 r)
  refine congrArg₂ (fun a b : EReal => a - b) ?_ ?_
  · refine congrArg₂ (fun a b : EReal => a - b) ?_ ?_
    · refine congrArg₂ (fun a b : EReal => a + b) ?_ ?_
      · refine congrArg₂ (fun a b : EReal => a * b) ?_ (pay16_at v0 r)
        exact congrArg₂ (fun a b : EReal => a * b) rfl (pay15_at v0 r)
      · exact congrArg₂ (fun a b : EReal => a * b) rfl (pay18_at v0 v28 r)
    · refine congrArg₂ (fun a b : EReal => a * b) ?_ (pay14_at v0 r)
      exact congrArg₂ (fun a b : EReal => a * b) rfl (pay15_at v0 r)
  · refine congrArg₂ (fun a b : EReal => a * b) ?_ (pay14_at v0 r)
    refine congrArg₂ (fun a b : EReal => a * b) ?_ (pay14_at v0 r)
    exact congrArg₂ (fun a b : EReal => a * b) rfl (pay16_at v0 r)

/-- The first two terms of the angular acceleration's numerator at row r. -/
theorem pay20_at : k0_pay20 (F := Ideal) v0 v28 (ix1 r)
    = Ideal.ofBits .f32 0x413C28F6#32 * Ideal.sin (v0 (ix2 r 2))
      + Ideal.ofBits .f32 0x3E99999A#32 * Ideal.cos (v0 (ix2 r 2)) * Spec.force (fun k => v0 (ix2 r k)) (v28 (ix1 r)) := by
  unfold k0_pay20
  refine congrArg₂ (fun a b : EReal => a + b) ?_ ?_
  · exact congrArg₂ (fun a b : EReal => a * b) rfl (pay16_at v0 r)
  · refine congrArg₂ (fun a b : EReal => a * b) ?_ (pay18_at v0 v28 r)
    exact congrArg₂ (fun a b : EReal => a * b) rfl (pay15_at v0 r)

/-- The friction coefficient of the angular acceleration, the same at every row. -/
theorem pay21_at : k0_pay21 (F := Ideal) (ix1 r) = Ideal.ofBits .f32 0x3F4CCCCD#32 := rfl
end pendulum

/-! ### The stored block, for any eleven vectors -/

section block
variable (v28 v30 : FVec Ideal S64 .f32) (v48 : FVec Ideal S64x4 .f32)
  (v50 v54 v55 v56 v61 v80 v86 v87 : FVec Ideal S64 .f32) (r : Fin 64)

/-- Column 0 of the stored block is the prediction. -/
theorem pay1_left : k0_pay1 (F := Ideal) v28 v30 v48 v50 v54 v55 v56 v61 v80 v86 v87 (ix2 r (0 : Fin 2)) = v28 (ix1 r) := by
  unfold k0_pay1
  refine (cat_left _ _ _ r).trans ?_
  exact cast_vec_col _ _ r (0 : Fin 1)

/-- Column 1 of the stored block is the two penalties, spelt over the eleven vectors' entries at row r. -/
theorem pay1_right : k0_pay1 (F := Ideal) v28 v30 v48 v50 v54 v55 v56 v61 v80 v86 v87 (ix2 r (1 : Fin 2))
    = Spec.penK (v30 (ix1 r))
        (v48 (ix2 r 0) * v50 (ix1 r) + v48 (ix2 r 1) * v80 (ix1 r) + v48 (ix2 r 2) * v54 (ix1 r)
          + v48 (ix2 r 3) * Ideal.div (v86 (ix1 r) - v87 (ix1 r) * v54 (ix1 r)
              - Ideal.ofBits .f32 0x3DB851EC#32 * v55 (ix1 r) * v56 (ix1 r) * v54 (ix1 r) * v54 (ix1 r)) (v61 (ix1 r))) := by
  unfold k0_pay1 Spec.penK
  refine (cat_right _ _ _ r).trans ?_
  refine (cast_vec_col _ _ r (0 : Fin 1)).trans ?_
  refine congrArg₂ (fun a b : EReal => a + b) rfl ?_
  refine congrArg₂ (fun a b : EReal => a * b) rfl ?_
  refine congrArg₂ (fun a b : EReal => max a b) ?_ rfl
  refine congrArg₂ (fun a b : EReal => a + b) ?_ ?_
  · refine congrArg₂ (fun a b : EReal => a + b) ?_ ?_
    · refine congrArg₂ (fun a b : EReal => a + b) ?_ ?_
      · exact congrArg₂ (fun a b : EReal => a * b) (col_at 0 _ _ _ r (0 : Fin 4) rfl) rfl
      · exact congrArg₂ (fun a b : EReal => a * b) (col_at 1 _ _ _ r (1 : Fin 4) rfl) rfl
    · exact congrArg₂ (fun a b : EReal => a * b) (col_at 2 _ _ _ r (2 : Fin 4) rfl) rfl
  · exact congrArg₂ (fun a b : EReal => a * b) (col_at 3 _ _ _ r (3 : Fin 4) rfl) rfl
end block

/-! ### The stored block at row r -/

/-- Row r of the stored block: the prediction, and the two penalties of the row's value and of the derivative of V
    along the flow. -/
theorem pen_at (v0 : Vec Ideal S64x4 .f32) (v28 v30 : FVec Ideal S64 .f32) (v48 : FVec Ideal S64x4 .f32) (r : Fin 64) (c : Fin 2) :
    k0_pay1 (F := Ideal) v28 v30 v48 (k0_pay12 v0) (k0_pay14 v0) (k0_pay15 v0) (k0_pay16 v0) (k0_pay17 v0) (k0_pay19 v0 v28) (k0_pay20 v0 v28) k0_pay21 (ix2 r c)
      = if c.val = 0 then v28 (ix1 r) else Cert.Spec.penK (v30 (ix1 r)) (Cert.Spec.vdotK (fun k => v0 (ix2 r k)) (v28 (ix1 r)) (fun k => v48 (ix2 r k))) := by
  match c with
  | ⟨0, _⟩ =>
    rw [if_pos rfl]
    exact pay1_left v28 v30 v48 _ _ _ _ _ _ _ _ r
  | ⟨1, h1⟩ =>
    rw [if_neg (show ¬ (⟨1, h1⟩ : Fin 2).val = 0 from Nat.one_ne_zero)]
    refine (pay1_right v28 v30 v48 _ _ _ _ _ _ _ _ r).trans ?_
    unfold Spec.vdotK Spec.acc4
    refine congrArg (Spec.penK (v30 (ix1 r))) ?_
    refine congrArg₂ (fun a b : EReal => a + b) ?_ ?_
    · refine congrArg₂ (fun a b : EReal => a + b) ?_ ?_
      · refine congrArg₂ (fun a b : EReal => a + b) ?_ ?_
        · exact congrArg₂ (fun a b : EReal => a * b) rfl (pay12_at v0 r)
        · exact congrArg₂ (fun a b : EReal => a * b) rfl (pay19_at v0 v28 r)
      · exact congrArg₂ (fun a b : EReal => a * b) rfl (pay14_at v0 r)
    · refine congrArg₂ (fun a b : EReal => a * b) rfl ?_
      refine congrArg₂ Ideal.div ?_ (pay17_at v0 r)
      refine congrArg₂ (fun a b : EReal => a - b) ?_ ?_
      · refine congrArg₂ (fun a b : EReal => a - b) (pay20_at v0 v28 r) ?_
        exact congrArg₂ (fun a b : EReal => a * b) (pay21_at r) (pay14_at v0 r)
      · refine congrArg₂ (fun a b : EReal => a * b) ?_ (pay14_at v0 r)
        refine congrArg₂ (fun a b : EReal => a * b) ?_ (pay14_at v0 r)
        refine congrArg₂ (fun a b : EReal => a * b) ?_ (pay16_at v0 r)
        exact congrArg₂ (fun a b : EReal => a * b) rfl (pay15_at v0 r)

end Cert.KPen

end
-- ==== Proof.KRow.lean ====
/-
  One row of the stored block, assembled: the forward pass gives the prediction and V, the two pull-backs give
  dV/dx, and the pendulum terms with the penalties close the row.
-/
import proofs.«114953_j21019569946955_2_alg».proof.Proof.KPay
import proofs.«114953_j21019569946955_2_alg».proof.Proof.KPen

noncomputable section

namespace Cert.KRow

open Cert.KernelIdeal Cert.KernelIdeal.Gen Idealize.ShloMosaic Idealize.ShloMosaic.ValueIdx Cert.KMat Cert.KPay

variable (x0 : Vec Ideal S64x4 .f32) (x1 : Vec Ideal S4x2048 .bf16) (x2 : Vec Ideal S1x2048 .f32)
  (x3 : Vec Ideal S2048x2048 .bf16) (x4 : Vec Ideal S1x2048 .f32) (x5 : Vec Ideal S2048x2 .bf16) (x6 : Vec Ideal S1x2 .f32)

/-- Row r's gradient dV/dx: the generic pull-back lemma at the body's own gradient block, activations and weights. -/
theorem dv_at (r : Fin 64) (k : Fin 4) :
    k0_pay11 (F := Ideal) (k0_pay2 x1) (k0_pay3 x0 x1 x2) (k0_pay4 x3) (k0_pay10 x0 x1 x2 x3 x4 x5) (ix2 r k)
      = Spec.dvK (xrow x0 r) (Spec.mat x1) (brow x2) (Spec.mat x3) (brow x4) (Spec.mat x5) k := by
  have e2 : k0_pay2 (F := Ideal) x1 = x1 := shapeCast_self _ _
  have e4 : k0_pay4 (F := Ideal) x3 = x3 := shapeCast_self _ _
  rw [pay11_at, e2, e4]
  unfold Spec.dvK Spec.g1K
  simp only [pay10_at, pay3_at]

/-- Row r of the stored block: column 0 the prediction, column 1 the two penalties. -/
theorem row_at (r : Fin 64) (c : Fin 2) :
    k0_pay1 (F := Ideal) (k0_pay8 x0 x1 x2 x3 x4 x5 x6) (k0_pay9 x0 x1 x2 x3 x4 x5 x6)
        (k0_pay11 (k0_pay2 x1) (k0_pay3 x0 x1 x2) (k0_pay4 x3) (k0_pay10 x0 x1 x2 x3 x4 x5))
        (k0_pay12 x0) (k0_pay14 x0) (k0_pay15 x0) (k0_pay16 x0) (k0_pay17 x0)
        (k0_pay19 x0 (k0_pay8 x0 x1 x2 x3 x4 x5 x6)) (k0_pay20 x0 (k0_pay8 x0 x1 x2 x3 x4 x5 x6)) k0_pay21 (ix2 r c)
      = if c.val = 0 then Spec.z3 (xrow x0 r) (Spec.mat x1) (brow x2) (Spec.mat x3) (brow x4) (Spec.mat x5) (brow x6) 0
        else Spec.penK (Spec.z3 (xrow x0 r) (Spec.mat x1) (brow x2) (Spec.mat x3) (brow x4) (Spec.mat x5) (brow x6) 1)
          (Spec.vdotK (xrow x0 r) (Spec.z3 (xrow x0 r) (Spec.mat x1) (brow x2) (Spec.mat x3) (brow x4) (Spec.mat x5) (brow x6) 0)
            (Spec.dvK (xrow x0 r) (Spec.mat x1) (brow x2) (Spec.mat x3) (brow x4) (Spec.mat x5))) := by
  refine (KPen.pen_at x0 _ _ _ r c).trans ?_
  have hdv : (fun k => k0_pay11 (F := Ideal) (k0_pay2 x1) (k0_pay3 x0 x1 x2) (k0_pay4 x3) (k0_pay10 x0 x1 x2 x3 x4 x5) (ix2 r k))
      = Spec.dvK (xrow x0 r) (Spec.mat x1) (brow x2) (Spec.mat x3) (brow x4) (Spec.mat x5) := funext fun k => dv_at x0 x1 x2 x3 x4 x5 r k
  rw [pay8_at, pay9_at, hdv]
  rfl

end Cert.KRow

end
-- ==== Proof.KIn.lean ====
/-
  What the idealized kernel's one region finds in its eight windows at a grid point. The grid has 1024 points;
  at point t the first window shows rows 64 t … 64 t + 63 of the batch, the last window the same rows of the
  output, and the six windows between show a whole weight or bias array each. The weights the region reads were
  written just before it by format conversions, which are the identity on extended reals; the biases by
  reshaping a vector [n] into a one-row matrix [1, n].
-/
import proofs.«114953_j21019569946955_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KIn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ### The arrays the host operations before the region wrote -/

/-- The first weight matrix as the region finds it: the launched one, its format conversion being the identity. -/
theorem V_main_v0 (c : Dev nD) : (V m c main_v0 : S4x2048.Idx → EReal) = m ((c : Thread nD τ).loc main_arg2) := by
  show StableHlo.after hostOps0 (fun b => m (c, b)) (Proc.devRef .tc main_v0) = _
  after_results
  rfl

/-- The second weight matrix as the region finds it. -/
theorem V_main_v1 (c : Dev nD) : (V m c main_v1 : S2048x2048.Idx → EReal) = m ((c : Thread nD τ).loc main_arg4) := by
  show StableHlo.after hostOps0 (fun b => m (c, b)) (Proc.devRef .tc main_v1) = _
  after_results
  rfl

/-- The third weight matrix as the region finds it. -/
theorem V_main_v2 (c : Dev nD) : (V m c main_v2 : S2048x2.Idx → EReal) = m ((c : Thread nD τ).loc main_arg6) := by
  show StableHlo.after hostOps0 (fun b => m (c, b)) (Proc.devRef .tc main_v2) = _
  after_results
  rfl

/-- The first bias as the region finds it: the launched vector laid out as one row. -/
theorem V_main_v3 (c : Dev nD) (j : Fin 2048) :
    (V m c main_v3 : S1x2048.Idx → EReal) (ix2 (0 : Fin 1) j) = m ((c : Thread nD τ).loc main_arg3) (ix1 j) := by
  have e : (V m c main_v3 : S1x2048.Idx → EReal)
      = shapeCast S1x2048 (m ((c : Thread nD τ).loc main_arg3) : S2048.Idx → EReal) shapeCasts_S2048_S1x2048 := by
    show StableHlo.after hostOps0 (fun b => m (c, b)) (Proc.devRef .tc main_v3) = _
    after_results
    rfl
  rw [e]
  exact shapeCast_a_1a_apply _ _ (0 : Fin 1) j

/-- The second bias as the region finds it. -/
theorem V_main_v4 (c : Dev nD) (j : Fin 2048) :
    (V m c main_v4 : S1x2048.Idx → EReal) (ix2 (0 : Fin 1) j) = m ((c : Thread nD τ).loc main_arg5) (ix1 j) := by
  have e : (V m c main_v4 : S1x2048.Idx → EReal)
      = shapeCast S1x2048 (m ((c : Thread nD τ).loc main_arg5) : S2048.Idx → EReal) shapeCasts_S2048_S1x2048 := by
    show StableHlo.after hostOps0 (fun b => m (c, b)) (Proc.devRef .tc main_v4) = _
    after_results
    rfl
  rw [e]
  exact shapeCast_a_1a_apply _ _ (0 : Fin 1) j

/-- The third bias as the region finds it. -/
theorem V_main_v5 (c : Dev nD) (j : Fin 2) :
    (V m c main_v5 : S1x2.Idx → EReal) (ix2 (0 : Fin 1) j) = m ((c : Thread nD τ).loc main_arg7) (ix1 j) := by
  have e : (V m c main_v5 : S1x2.Idx → EReal)
      = shapeCast S1x2 (m ((c : Thread nD τ).loc main_arg7) : S2.Idx → EReal) shapeCasts_S2_S1x2 := by
    show StableHlo.after hostOps0 (fun b => m (c, b)) (Proc.devRef .tc main_v5) = _
    after_results
    rfl
  rw [e]
  exact shapeCast_a_1a_apply _ _ (0 : Fin 1) j

/-! ### The windows' block indices, decided over the grid -/

/-- At point t the batch window and the output window are on block (t, 0); every other window stays on block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ### Each input window's block at a point -/

/-- Row p of block t is row 64 t + p of the batch, below its 65536 rows. -/
theorem row_lt (t : Fin cfg0.N) (p : Fin 64) : t.val * 64 + p.val < 65536 := by
  have ht : t.val < 1024 := lt_of_lt_of_eq t.isLt N_0
  have hp : p.val < 64 := p.isLt
  omega

/-- The batch window at point t: rows 64 t … 64 t + 63 of the launched batch. -/
theorem iblk0_at (c : Dev nD) (t : Fin cfg0.N) (p : Fin 64) (k : Fin 4) :
    (iblk m c 0 t : S64x4.Idx → EReal) (ix2 p k)
      = m ((c : Thread nD τ).loc main_arg0) (ix2 ⟨t.val * 64 + p.val, row_lt t p⟩ k) := by
  obtain ⟨e0, e1, -⟩ := idx_facts t
  show V m c main_arg0 (((cfg0.win 0).blk t).view.emb (ix2 p k)) = _
  rw [V_main_arg0]
  refine congrArg _ ?_
  funext a; apply Fin.ext
  match a with
  | ⟨0, _⟩ => show win0_0.index t (0 : Fin 2) * 64 + 1 * p.val = t.val * 64 + p.val; omega
  | ⟨1, _⟩ => show win0_0.index t (1 : Fin 2) * 4 + 1 * k.val = k.val; omega

/-- The first weight window shows the whole launched first weight matrix at every point. -/
theorem iblk1_eq (c : Dev nD) (t : Fin cfg0.N) :
    (iblk m c 1 t : S4x2048.Idx → EReal) = m ((c : Thread nD τ).loc main_arg2) := by
  obtain ⟨-, -, e0, e1, -⟩ := idx_facts t
  funext y
  show V m c main_v0 (((cfg0.win 1).blk t).view.emb y) = _
  refine (congrFun (V_main_v0 m c) _).trans ?_
  refine congrArg _ ?_
  funext a; apply Fin.ext
  match a with
  | ⟨0, _⟩ => show win0_1.index t (0 : Fin 2) * 4 + 1 * (y 0).val = (y 0).val; omega
  | ⟨1, _⟩ => show win0_1.index t (1 : Fin 2) * 2048 + 1 * (y 1).val = (y 1).val; omega

/-- The second weight window shows the whole launched second weight matrix at every point. -/
theorem iblk3_eq (c : Dev nD) (t : Fin cfg0.N) :
    (iblk m c 3 t : S2048x2048.Idx → EReal) = m ((c : Thread nD τ).loc main_arg4) := by
  obtain ⟨-, -, -, -, -, -, e0, e1, -⟩ := idx_facts t
  funext y
  show V m c main_v1 (((cfg0.win 3).blk t).view.emb y) = _
  refine (congrFun (V_main_v1 m c) _).trans ?_
  refine congrArg _ ?_
  funext a; apply Fin.ext
  match a with
  | ⟨0, _⟩ => show win0_3.index t (0 : Fin 2) * 2048 + 1 * (y 0).val = (y 0).val; omega
  | ⟨1, _⟩ => show win0_3.index t (1 : Fin 2) * 2048 + 1 * (y 1).val = (y 1).val; omega

/-- The third weight window shows the whole launched third weight matrix at every point. -/
theorem iblk5_eq (c : Dev nD) (t : Fin cfg0.N) :
    (iblk m c 5 t : S2048x2.Idx → EReal) = m ((c : Thread nD τ).loc main_arg6) := by
  obtain ⟨-, -, -, -, -, -, -, -, -, -, e0, e1, -⟩ := idx_facts t
  funext y
  show V m c main_v2 (((cfg0.win 5).blk t).view.emb y) = _
  refine (congrFun (V_main_v2 m c) _).trans ?_
  refine congrArg _ ?_
  funext a; apply Fin.ext
  match a with
  | ⟨0, _⟩ => show win0_5.index t (0 : Fin 2) * 2048 + 1 * (y 0).val = (y 0).val; omega
  | ⟨1, _⟩ => show win0_5.index t (1 : Fin 2) * 2 + 1 * (y 1).val = (y 1).val; omega

/-- The first bias window shows the launched first bias, as one row, at every point. -/
theorem iblk2_at (c : Dev nD) (t : Fin cfg0.N) (j : Fin 2048) :
    (iblk m c 2 t : S1x2048.Idx → EReal) (ix2 (0 : Fin 1) j) = m ((c : Thread nD τ).loc main_arg3) (ix1 j) := by
  obtain ⟨-, -, -, -, e0, e1, -⟩ := idx_facts t
  show V m c main_v3 (((cfg0.win 2).blk t).view.emb (ix2 (0 : Fin 1) j)) = _
  refine Eq.trans (congrArg (V m c main_v3 : S1x2048.Idx → EReal) ?_) (V_main_v3 m c j)
  funext a; apply Fin.ext
  match a with
  | ⟨0, _⟩ => show win0_2.index t (0 : Fin 2) * 1 + 1 * 0 = 0; omega
  | ⟨1, _⟩ => show win0_2.index t (1 : Fin 2) * 2048 + 1 * j.val = j.val; omega

/-- The second bias window shows the launched second bias, as one row, at every point. -/
theorem iblk4_at (c : Dev nD) (t : Fin cfg0.N) (j : Fin 2048) :
    (iblk m c 4 t : S1x2048.Idx → EReal) (ix2 (0 : Fin 1) j) = m ((c : Thread nD τ).loc main_arg5) (ix1 j) := by
  obtain ⟨-, -, -, -, -, -, -, -, e0, e1, -⟩ := idx_facts t
  show V m c main_v4 (((cfg0.win 4).blk t).view.emb (ix2 (0 : Fin 1) j)) = _
  refine Eq.trans (congrArg (V m c main_v4 : S1x2048.Idx → EReal) ?_) (V_main_v4 m c j)
  funext a; apply Fin.ext
  match a with
  | ⟨0, _⟩ => show win0_4.index t (0 : Fin 2) * 1 + 1 * 0 = 0; omega
  | ⟨1, _⟩ => show win0_4.index t (1 : Fin 2) * 2048 + 1 * j.val = j.val; omega

/-- The third bias window shows the launched third bias, as one row, at every point. -/
theorem iblk6_at (c : Dev nD) (t : Fin cfg0.N) (j : Fin 2) :
    (iblk m c 6 t : S1x2.Idx → EReal) (ix2 (0 : Fin 1) j) = m ((c : Thread nD τ).loc main_arg7) (ix1 j) := by
  obtain ⟨-, -, -, -, -, -, -, -, -, -, -, -, e0, e1, -⟩ := idx_facts t
  show V m c main_v5 (((cfg0.win 6).blk t).view.emb (ix2 (0 : Fin 1) j)) = _
  refine Eq.trans (congrArg (V m c main_v5 : S1x2.Idx → EReal) ?_) (V_main_v5 m c j)
  funext a; apply Fin.ext
  match a with
  | ⟨0, _⟩ => show win0_6.index t (0 : Fin 2) * 1 + 1 * 0 = 0; omega
  | ⟨1, _⟩ => show win0_6.index t (1 : Fin 2) * 2 + 1 * j.val = j.val; omega

/-! ### The output window: where a block's entry lands, and that the blocks fill the array -/

/-- Entry (p, q) of the output's block t is entry (64 t + p, q) of the output array. -/
theorem emb7 (t : Fin cfg0.N) (p : Fin 64) (q : Fin 2) :
    (((cfg0.win 7).blk t).view.emb (ix2 p q) : S65536x2.Idx) = ix2 ⟨t.val * 64 + p.val, row_lt t p⟩ q := by
  obtain ⟨-, -, -, -, -, -, -, -, -, -, -, -, -, -, e0, e1⟩ := idx_facts t
  funext a; apply Fin.ext
  match a with
  | ⟨0, _⟩ => show win0_7.index t (0 : Fin 2) * 64 + 1 * p.val = t.val * 64 + p.val; omega
  | ⟨1, _⟩ => show win0_7.index t (1 : Fin 2) * 2 + 1 * q.val = q.val; omega

/-- An index of the output array is in point t's block iff each coordinate is in the block's range on its axis. -/
theorem mem_blk7 (t : Fin cfg0.N) (i : S65536x2.Idx) :
    i ∈ ((cfg0.win 7).blk t).view.set
      ↔ ∀ a : Fin 2, win0_7.index t a * S64x2.size a ≤ (i a).val ∧ (i a).val < win0_7.index t a * S64x2.size a + S64x2.size a := by
  show i ∈ ((View.whole main_v6).slice (win0_7.rect t)).set ↔ _
  rw [View.set_slice_whole, Rect.mem_set_unit]
  exact Iff.rfl

/-- Every index of the output array is in some point's block: row r is in block r / 64, and every point writes back. -/
theorem cover7 : ∀ i : S65536x2.Idx, ∃ t : Fin cfg0.N, (cfg0.win 7).flush t = true ∧ i ∈ ((cfg0.win 7).blk t).view.set := by
  intro i
  have hi0 : (i 0).val < 65536 := (i 0).isLt
  have hi1 : (i 1).val < 2 := (i 1).isLt
  obtain ⟨t, ht⟩ : ∃ t : Fin cfg0.N, t.val = (i 0).val / 64 :=
    ⟨⟨(i 0).val / 64, lt_of_lt_of_eq (by omega : (i 0).val / 64 < 1024) N_0.symm⟩, rfl⟩
  obtain ⟨-, -, -, -, -, -, -, -, -, -, -, -, -, -, e0, e1⟩ := idx_facts t
  refine ⟨t, flush0_7 t, ?_⟩
  rw [mem_blk7]
  intro a
  match a with
  | ⟨0, _⟩ =>
    show win0_7.index t (0 : Fin 2) * 64 ≤ (i 0).val ∧ (i 0).val < win0_7.index t (0 : Fin 2) * 64 + 64
    omega
  | ⟨1, _⟩ =>
    show win0_7.index t (1 : Fin 2) * 2 ≤ (i 1).val ∧ (i 1).val < win0_7.index t (1 : Fin 2) * 2 + 2
    omega

end Cert.KIn

end
-- ==== Proof.KTail.lean ====
/-
  The kernel program's operations after its one region, read at one sample.

  The region leaves a [65536, 2] array: column 0 the predictions, column 1 the per-sample penalties. The operations
  after it take column 0 and the targets y, form the batch loss 0.1 · mean of squared log-differences + 0.9 · mean of
  squared differences, broadcast that one number over the batch and add column 1. Here those operations are named as
  one function tailFn of the region's output and y, the program's result is shown to be tailFn of whatever the two
  buffers hold, and tailFn is read at sample b: Spec's batch loss of column 0 against y, plus column 1 at b.
  Nothing about the region is used: the statement holds for any contents of the buffers.
-/
import proofs.«114953_j21019569946955_2_alg».proof.Proof.Gen.KernelIdeal.Launch
import proofs.«114953_j21019569946955_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KTail

open Cert.KernelIdeal Cert.KernelIdeal.Gen Idealize.ShloMosaic Idealize.ShloMosaic.TcCoe Idealize.ShloMosaic.Tactic Idealize.ShloMosaic.StableHlo
open Idealize.ShloMosaic.ValueIdx (ix0 ix1 ix2)

/-- Column 0 of a [65536, 2] array, as a vector over the batch. -/
def col0 (G : FVec Ideal S65536x2 .f32) : FVec Ideal S65536 .f32 :=
  shapeCast _ (extractStridedSlice S65536x1 ![0, 0] G slices_S65536x2_S65536x1_0_0) shapeCasts_S65536x1_S65536

/-- Column 1 of a [65536, 2] array, as a vector over the batch. -/
def col1 (G : FVec Ideal S65536x2 .f32) : FVec Ideal S65536 .f32 :=
  shapeCast _ (extractStridedSlice S65536x1 ![0, 1] G slices_S65536x2_S65536x1_0_1) shapeCasts_S65536x1_S65536

/-- The squared log-differences of predictions P and targets Y, sample by sample. -/
def sqLog (P Y : FVec Ideal S65536 .f32) : FVec Ideal S65536 .f32 :=
  mulf
    (subf (Host.log1p (F := Ideal) (maximumf P (broadcastInDim S65536 ![] bcast_S_S65536 (constant (F := Ideal) S_ .f32 0x33D6BF95#32))))
      (Host.log1p (F := Ideal) (maximumf Y (broadcastInDim S65536 ![] bcast_S_S65536 (constant (F := Ideal) S_ .f32 0x33D6BF95#32)))))
    (subf (Host.log1p (F := Ideal) (maximumf P (broadcastInDim S65536 ![] bcast_S_S65536 (constant (F := Ideal) S_ .f32 0x33D6BF95#32))))
      (Host.log1p (F := Ideal) (maximumf Y (broadcastInDim S65536 ![] bcast_S_S65536 (constant (F := Ideal) S_ .f32 0x33D6BF95#32)))))

/-- The squared differences of targets Y and predictions P, sample by sample. -/
def sqDiff (P Y : FVec Ideal S65536 .f32) : FVec Ideal S65536 .f32 :=
  mulf (subf Y P) (subf Y P)

/-- The batch loss of predictions P against targets Y, as a rank-0 array. -/
def lossFn (P Y : FVec Ideal S65536 .f32) : FVec Ideal S_ .f32 :=
  addf
    (mulf (constant (F := Ideal) S_ .f32 0x3DCCCCCD#32)
      (Host.divf (F := Ideal) (Host.reduceAdd (F := Ideal) (sqLog P Y) (constant (F := Ideal) S_ .f32 0x00000000#32) reducesTo_S65536_S_d0 h_S_)
        (constant (F := Ideal) S_ .f32 0x47800000#32)))
    (mulf (constant (F := Ideal) S_ .f32 0x3F666666#32)
      (Host.divf (F := Ideal) (Host.reduceAdd (F := Ideal) (sqDiff P Y) (constant (F := Ideal) S_ .f32 0x00000000#32) reducesTo_S65536_S_d0 h_S_)
        (constant (F := Ideal) S_ .f32 0x47800000#32)))

/-- The operations after the region, as one function of the region's [65536, 2] output G and the targets Y:
    the batch loss of column 0 against Y, broadcast over the batch, plus column 1. -/
def tailFn (G : FVec Ideal S65536x2 .f32) (Y : FVec Ideal S65536 .f32) :
    FVec Ideal S65536 .f32 :=
  addf (broadcastInDim S65536 ![] bcast_S_S65536 (lossFn (col0 G) Y)) (col1 G)

/-- The operations after the region, run from any contents W, leave tailFn of the region's output and the targets. -/
theorem tail_term (W : Valuation τ sig (Elt Ideal)) :
    StableHlo.after (hostOps1 (F := Ideal)) W (Proc.devRef .tc main_v29)
      = tailFn (W (Proc.devRef .tc main_v6)) (W (Proc.devRef .tc main_arg1)) := by
  after_results_simp
  rfl

/-! ### tailFn read at a sample -/

/-- Column 0 at sample b. -/
theorem col0_at (G : FVec Ideal S65536x2 .f32) (b : Fin 65536) : col0 G (ix1 b) = G (ix2 b (0 : Fin 2)) := by
  unfold col0
  refine (shapeCast_apply _ shapeCasts_S65536x1_S65536 (ix1 b) (ix2 b (0 : Fin 1)) ?_).trans ?_
  · rewrite [Shape.rowMajor_val_two, Shape.rowMajor_val_one]
    show b.val * 1 + 0 = b.val
    omega
  · exact extractStridedSlice_apply ![0, 0] G slices_S65536x2_S65536x1_0_0 (ix2 b (0 : Fin 1)) (ix2 b (0 : Fin 2))
      (fun a => match a with
        | ⟨0, _⟩ => by show b.val = 0 + b.val; omega
        | ⟨1, _⟩ => by show (0 : ℕ) = 0 + 0; rfl)

/-- Column 1 at sample b. -/
theorem col1_at (G : FVec Ideal S65536x2 .f32) (b : Fin 65536) : col1 G (ix1 b) = G (ix2 b (1 : Fin 2)) := by
  unfold col1
  refine (shapeCast_apply _ shapeCasts_S65536x1_S65536 (ix1 b) (ix2 b (0 : Fin 1)) ?_).trans ?_
  · rewrite [Shape.rowMajor_val_two, Shape.rowMajor_val_one]
    show b.val * 1 + 0 = b.val
    omega
  · exact extractStridedSlice_apply ![0, 1] G slices_S65536x2_S65536x1_0_1 (ix2 b (0 : Fin 1)) (ix2 b (1 : Fin 2))
      (fun a => match a with
        | ⟨0, _⟩ => by show b.val = 0 + b.val; omega
        | ⟨1, _⟩ => by show (1 : ℕ) = 1 + 0; rfl)

/-- Column 0 at an arbitrary index of the batch. -/
theorem col0_arr (G : FVec Ideal S65536x2 .f32) (i : S65536.Idx) :
    col0 G i = G (ix2 ⟨(i 0).val, (i 0).isLt⟩ (0 : Fin 2)) := by
  obtain ⟨b, rfl⟩ : ∃ b : Fin 65536, i = ix1 b := ⟨i 0, ValueIdx.eq_ix1 i⟩
  exact col0_at G b

/-- The squared log-difference at one sample. -/
theorem sqLog_at (P Y : FVec Ideal S65536 .f32) (i : S65536.Idx) :
    sqLog P Y i
      = (Ideal.log1p (max (P i) (Ideal.ofBits .f32 0x33D6BF95#32)) - Ideal.log1p (max (Y i) (Ideal.ofBits .f32 0x33D6BF95#32)))
        * (Ideal.log1p (max (P i) (Ideal.ofBits .f32 0x33D6BF95#32)) - Ideal.log1p (max (Y i) (Ideal.ofBits .f32 0x33D6BF95#32))) :=
  rfl

/-- The squared difference at one sample. -/
theorem sqDiff_at (P Y : FVec Ideal S65536 .f32) (i : S65536.Idx) : sqDiff P Y i = (Y i - P i) * (Y i - P i) := rfl

/-- A full sum over the batch: the initial value plus the sum of every element. -/
theorem reduce_at (x : FVec Ideal S65536 .f32) (v : FVec Ideal S_ .f32) (i : S_.Idx) :
    Host.reduceAdd (F := Ideal) x v reducesTo_S65536_S_d0 h_S_ i = v (Shape.Idx.first h_S_) + ∑ j : S65536.Idx, x j := by
  simp only [Host.reduceAdd, Ideal.hostReduceAdd_def]
  exact Ideal.hostReduceAdd_total reducesTo_S65536_S_d0 (fun b => b.elim0) x _ i

/-- The batch loss, at the one index of a rank-0 array, is Spec's. -/
theorem lossFn_at (P Y : FVec Ideal S65536 .f32) (i : S_.Idx) : lossFn P Y i = Spec.custom P Y := by
  have h1 := reduce_at (sqLog P Y) (constant (F := Ideal) S_ .f32 0x00000000#32) i
  have h2 := reduce_at (sqDiff P Y) (constant (F := Ideal) S_ .f32 0x00000000#32) i
  show Ideal.ofBits .f32 0x3DCCCCCD#32
        * Ideal.div (Host.reduceAdd (F := Ideal) (sqLog P Y) (constant (F := Ideal) S_ .f32 0x00000000#32) reducesTo_S65536_S_d0 h_S_ i)
            (Ideal.ofBits .f32 0x47800000#32)
      + Ideal.ofBits .f32 0x3F666666#32
        * Ideal.div (Host.reduceAdd (F := Ideal) (sqDiff P Y) (constant (F := Ideal) S_ .f32 0x00000000#32) reducesTo_S65536_S_d0 h_S_ i)
            (Ideal.ofBits .f32 0x47800000#32) = _
  rw [h1, h2]
  simp only [sqLog_at, sqDiff_at]
  rfl

/-- tailFn at sample b: the batch loss of column 0 against the targets, plus column 1 at b. -/
theorem tailFn_at (G : FVec Ideal S65536x2 .f32) (Y : FVec Ideal S65536 .f32) (b : Fin 65536) :
    tailFn G Y (ix1 b)
      = Spec.custom (fun i => G (ix2 ⟨(i 0).val, (i 0).isLt⟩ (0 : Fin 2))) Y + G (ix2 b (1 : Fin 2)) := by
  unfold tailFn
  rw [ValueIdx.addf_apply, col1_at,
    broadcastInDim_apply _ bcast_S_S65536 (lossFn (col0 G) Y) (ix1 b) ix0 (fun a => a.elim0), lossFn_at]
  have e : col0 G = fun i => G (ix2 ⟨(i 0).val, (i 0).isLt⟩ (0 : Fin 2)) := funext (col0_arr G)
  rw [e]

theorem flatten_single {α : Type} (l : List α) : List.flatten [l] = l := by simp

/-- The kernel program's result at sample b, from any contents W of the region's output and the targets. -/
theorem tail_at (W : Valuation τ sig (Elt Ideal)) (b : Fin 65536) :
    (StableHlo.after (List.flatten [Gen.hostOps1 (F := Ideal)]) W (Proc.devRef .tc main_v29) : S65536.Idx → EReal) (ValueIdx.ix1 b)
      = Cert.Spec.custom (fun i => (W (Proc.devRef .tc main_v6) : S65536x2.Idx → EReal) (ValueIdx.ix2 ⟨(i 0).val, (i 0).isLt⟩ (0 : Fin 2))) (W (Proc.devRef .tc main_arg1))
        + (W (Proc.devRef .tc main_v6) : S65536x2.Idx → EReal) (ValueIdx.ix2 b (1 : Fin 2)) := by
  have hl : List.flatten [hostOps1 (F := Ideal)] = hostOps1 := flatten_single _
  refine (congrArg (fun l => (StableHlo.after l W (Proc.devRef .tc main_v29) : S65536.Idx → EReal) (ix1 b)) hl).trans ?_
  show (StableHlo.after (hostOps1 (F := Ideal)) W (Proc.devRef .tc main_v29) : S65536.Idx → EReal) (ix1 b) = _
  rw [tail_term]
  exact tailFn_at _ _ b

end Cert.KTail

end
-- ==== Proof.KValue.lean ====
/-
  The idealized kernel program's result as one function of its arguments. Point t of the grid stores rows
  64 t … 64 t + 63 of the [65536, 2] array; row r of that block is the per-sample function of row 64 t + r of the
  batch, so the array ends holding (prediction, penalties) of every sample. The host operations after the region
  add the batch loss, computed from column 0, to column 1.
-/
import proofs.«114953_j21019569946955_2_alg».proof.Proof.Gen.KernelIdeal.Frame
import proofs.«114953_j21019569946955_2_alg».proof.Proof.KRow
import proofs.«114953_j21019569946955_2_alg».proof.Proof.KIn
import proofs.«114953_j21019569946955_2_alg».proof.Proof.KTail
import proofs.«114953_j21019569946955_2_alg».proof.Proof.Spec

set_option maxRecDepth 16384

noncomputable section

namespace Cert.KValue

open Cert.KernelIdeal Cert.KernelIdeal.Gen Idealize.ShloMosaic Idealize.ShloMosaic.TcCoe Idealize.ShloMosaic.Tactic
open Idealize.SL Idealize.SL.Sem Idealize.ShloMosaic.ValueIdx
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The [65536, 2] array of (prediction, penalties), as a function of the argument arrays on core c. -/
def regionArr (c : Dev nD) : S65536x2.Idx → EReal := Spec.region (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What point t writes back is block t of that array. -/
theorem flushed_eq (c : Dev nD) (t : Fin cfg0.N) :
    (dats m 0 c).flushed 7 t = ((cfg0.win 7).blk t).view.read (Elt Ideal) (regionArr m c) := by
  show (cfg0.win 7).cut (grid0.coords t) ((dats m 0 c).after 7 t) = _
  rw [after0_7]
  unfold out0_7
  rw [View.canon_unit_zero hz]
  simp only [View.ld_unit_zero (S := S64x4) hz, View.ld_unit_zero (S := S4x2048) hz, View.ld_unit_zero (S := S1x2048) hz, View.ld_unit_zero (S := S2048x2048) hz, View.ld_unit_zero (S := S2048x2) hz, View.ld_unit_zero (S := S1x2) hz]
  funext y
  obtain ⟨p, q, rfl⟩ : ∃ (p : Fin 64) (q : Fin 2), y = ix2 p q := ⟨y 0, y 1, eq_ix2 y⟩
  have ht : t.val < 1024 := lt_of_lt_of_eq t.isLt N_0
  show k0_pay1 (F := Ideal) _ _ _ _ _ _ _ _ _ _ _ (ix2 p q) = regionArr m c (((cfg0.win 7).blk t).view.emb (ix2 p q))
  refine (KRow.row_at (iblk m c 0 t) (iblk m c 1 t) (iblk m c 2 t) (iblk m c 3 t) (iblk m c 4 t) (iblk m c 5 t) (iblk m c 6 t) p q).trans ?_
  have hx : KPay.xrow (iblk m c 0 t) p = Spec.rowOf (m ((c : Thread nD τ).loc main_arg0)) ⟨t.val * 64 + p.val, by omega⟩ := funext fun k => KIn.iblk0_at m c t p k
  have h1 : Spec.mat (iblk m c 1 t) = Spec.mat (m ((c : Thread nD τ).loc main_arg2)) := congrArg Spec.mat (KIn.iblk1_eq m c t)
  have h2 : KPay.brow (iblk m c 2 t) = Spec.vec (m ((c : Thread nD τ).loc main_arg3)) := funext fun j => KIn.iblk2_at m c t j
  have h3 : Spec.mat (iblk m c 3 t) = Spec.mat (m ((c : Thread nD τ).loc main_arg4)) := congrArg Spec.mat (KIn.iblk3_eq m c t)
  have h4 : KPay.brow (iblk m c 4 t) = Spec.vec (m ((c : Thread nD τ).loc main_arg5)) := funext fun j => KIn.iblk4_at m c t j
  have h5 : Spec.mat (iblk m c 5 t) = Spec.mat (m ((c : Thread nD τ).loc main_arg6)) := congrArg Spec.mat (KIn.iblk5_eq m c t)
  have h6 : KPay.brow (iblk m c 6 t) = Spec.vec (m ((c : Thread nD τ).loc main_arg7)) := funext fun j => KIn.iblk6_at m c t j
  rw [hx, h1, h2, h3, h4, h5, h6, KIn.emb7 t p q]
  rfl

/-- So the array ends holding it. -/
theorem final (c : Dev nD) : (dats m 0 c).arrAt 7 cfg0.N = regionArr m c :=
  (dats m 0 c).arrAt_eq_of_cover 7 (regionArr m c) (fun t _ => flushed_eq m c t) KIn.cover7

/-- The program's result on core c. -/
def result (c : Dev nD) : S65536.Idx → EReal := fun i => Spec.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨(i 0).val, (i 0).isLt⟩

/-- The host operations after the region, applied to that array and to y, give the result. -/
theorem tail_eq (c : Dev nD) :
    Pipeline.afterTail₀ cfgs (dats m) 0 (V0 m) [hostOps1] c main_v29 = result m c := by
  unfold Pipeline.afterTail₀
  funext i
  obtain ⟨b, rfl⟩ : ∃ b : Fin 65536, i = ix1 b := ⟨i 0, eq_ix1 i⟩
  refine (KTail.tail_at _ b).trans ?_
  rw [Pipeline.withArrays_arr spec0 launch0.win.arr_inj c _ _ 7, final m c,
    Pipeline.withArrays_of_ne _ c (V0 m c) _ main_arg1 (by exact (by decide : ∀ w, Pipeline.arrRef spec0 w ≠ main_arg1))]
  show Spec.custom _ (V m c main_arg1) + _ = _
  rw [V_main_arg1]
  rfl

/-- The frame run re-posted: the result buffer at the per-sample result, the arguments unchanged. -/
theorem run : θ_run defs (onTc (τ := τ) (main (F := Ideal))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v29 (Pipeline.mem_restRefs_of main_v29 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩) (run_main m ρ)

end Cert.KValue

end
-- ==== Proof.RefRead.lean ====
/-
  The reference program read at one sample.

  Operation by operation, the value the reference computes at row b of the batch is the mathematics of Spec.lean,
  spelt the same way: two copies of the forward pass (a1, a2, z3 of row b), the gradient of the second output
  pulled back from a one-hot upstream gradient through the three layers in the form g (1 - a) + g (1 - a) a, the
  pendulum's two accelerations, the directional derivative as zero plus a four-term sum, the batch loss as two full
  sums over the batch, and the two penalties added one after the other. Every lemma below reads one array of the
  program at an index written with literal coordinates (row b, column j) and names the result in Spec's terms; no
  algebra is used anywhere, only the reading of each operation at an index.

  Two layout operations are read by hand: the padding of a column of ones with a column of zeros on its left (the
  one-hot upstream gradient) and the joining of four columns along axis 1 (the state's time derivative).
-/
import proofs.«114953_j21019569946955_2_alg».proof.Proof.Gen.ReferenceIdeal.Read
import proofs.«114953_j21019569946955_2_alg».proof.Proof.Spec
import Idealize.ShloMosaic.Lib.ValueIdx
import Idealize.ShloMosaic.Lib.Pipeline.Value
import Idealize.ShloMosaic.PureOps.Ideal.Laws

noncomputable section

namespace Cert.RefRead

open Cert.ReferenceIdeal Cert.ReferenceIdeal.Gen Cert.ReferenceIdeal.Read Idealize.ShloMosaic
open Idealize.ShloMosaic.ValueIdx (ix0 ix1 ix2)

section Staged

variable (x0 : (⟨S65536x4, .f32⟩ : BufTy).Contents (Elt Ideal)) (x1 : (⟨S65536, .f32⟩ : BufTy).Contents (Elt Ideal))
  (x2 : (⟨S4x2048, .f32⟩ : BufTy).Contents (Elt Ideal)) (x3 : (⟨S2048, .f32⟩ : BufTy).Contents (Elt Ideal))
  (x4 : (⟨S2048x2048, .f32⟩ : BufTy).Contents (Elt Ideal)) (x5 : (⟨S2048, .f32⟩ : BufTy).Contents (Elt Ideal))
  (x6 : (⟨S2048x2, .f32⟩ : BufTy).Contents (Elt Ideal)) (x7 : (⟨S2, .f32⟩ : BufTy).Contents (Elt Ideal))

/-! ### The forward pass, first copy: operations 0 to 17 -/

theorem lidx_v0 (b : Fin 65536) (j : Fin 2048) (k : Fin 4) : lidx_main_v0 (ix2 b j) k = ix2 b k := by
  funext a; match a with | ⟨0, _⟩ => rfl | ⟨1, _⟩ => rfl
theorem ridx_v0 (b : Fin 65536) (j : Fin 2048) (k : Fin 4) : ridx_main_v0 (ix2 b j) k = ix2 k j := by
  funext a; match a with | ⟨0, _⟩ => rfl | ⟨1, _⟩ => rfl

/-- The first bias, broadcast over the batch, read at (b, j). -/
theorem v2_at (b : Fin 65536) (j : Fin 2048) : val_main_v2 (F := Ideal) x3 (ix2 b j) = Spec.vec x3 j := by
  rw [val_main_v2_apply, val_main_v1_apply]
  refine congrArg x3 ?_
  funext a; match a with | ⟨0, _⟩ => rfl

/-- The first hidden layer at (b, j) is a1 of row b. -/
theorem v4_at (b : Fin 65536) (j : Fin 2048) :
    val_main_v4 (F := Ideal) x0 x2 x3 (ix2 b j) = Spec.a1 (Spec.rowOf x0 b) (Spec.mat x2) (Spec.vec x3) j := by
  rw [val_main_v4_apply, val_main_v3_apply, val_main_v0_apply, v2_at]
  simp only [Ideal.hostUnary_tanh_def, Ideal.addf_def, lidx_v0, ridx_v0]
  rfl

theorem lidx_v5 (b : Fin 65536) (j : Fin 2048) (k : Fin 2048) : lidx_main_v5 (ix2 b j) k = ix2 b k := by
  funext a; match a with | ⟨0, _⟩ => rfl | ⟨1, _⟩ => rfl
theorem ridx_v5 (b : Fin 65536) (j : Fin 2048) (k : Fin 2048) : ridx_main_v5 (ix2 b j) k = ix2 k j := by
  funext a; match a with | ⟨0, _⟩ => rfl | ⟨1, _⟩ => rfl

/-- The second bias, broadcast over the batch, read at (b, j). -/
theorem v7_at (b : Fin 65536) (j : Fin 2048) : val_main_v7 (F := Ideal) x5 (ix2 b j) = Spec.vec x5 j := by
  rw [val_main_v7_apply, val_main_v6_apply]
  refine congrArg x5 ?_
  funext a; match a with | ⟨0, _⟩ => rfl

/-- The second hidden layer at (b, j) is a2 of row b. -/
theorem v9_at (b : Fin 65536) (j : Fin 2048) :
    val_main_v9 (F := Ideal) x0 x2 x3 x4 x5 (ix2 b j)
      = Spec.a2 (Spec.rowOf x0 b) (Spec.mat x2) (Spec.vec x3) (Spec.mat x4) (Spec.vec x5) j := by
  rw [val_main_v9_apply, val_main_v8_apply, val_main_v5_apply, v7_at]
  simp only [Ideal.hostUnary_tanh_def, Ideal.addf_def, lidx_v5, ridx_v5, v4_at]
  rfl

theorem lidx_v10 (b : Fin 65536) (c : Fin 2) (k : Fin 2048) : lidx_main_v10 (ix2 b c) k = ix2 b k := by
  funext a; match a with | ⟨0, _⟩ => rfl | ⟨1, _⟩ => rfl
theorem ridx_v10 (b : Fin 65536) (c : Fin 2) (k : Fin 2048) : ridx_main_v10 (ix2 b c) k = ix2 k c := by
  funext a; match a with | ⟨0, _⟩ => rfl | ⟨1, _⟩ => rfl

/-- The output bias, broadcast over the batch, read at (b, c). -/
theorem v12_at (b : Fin 65536) (c : Fin 2) : val_main_v12 (F := Ideal) x7 (ix2 b c) = Spec.vec x7 c := by
  rw [val_main_v12_apply, val_main_v11_apply]
  refine congrArg x7 ?_
  funext a; match a with | ⟨0, _⟩ => rfl

/-- The network's output at (b, c) is z3 of row b. -/
theorem v13_at (b : Fin 65536) (c : Fin 2) :
    val_main_v13 (F := Ideal) x0 x2 x3 x4 x5 x6 x7 (ix2 b c)
      = Spec.z3 (Spec.rowOf x0 b) (Spec.mat x2) (Spec.vec x3) (Spec.mat x4) (Spec.vec x5) (Spec.mat x6) (Spec.vec x7) c := by
  rw [val_main_v13_apply, val_main_v10_apply, v12_at]
  simp only [Ideal.addf_def, lidx_v10, ridx_v10, v9_at]
  rfl

/-- Column 0 of the output, as a vector over the batch: y_pred. -/
theorem v15_at (b : Fin 65536) :
    val_main_v15 (F := Ideal) x0 x2 x3 x4 x5 x6 x7 (ix1 b) = Spec.ypRow x0 x2 x3 x4 x5 x6 x7 b := by
  rw [val_main_v15_apply, val_main_v14_apply]
  have e : idx_main_v14 (idx_main_v15 (ix1 b)) = ix2 b (0 : Fin 2) := by
    funext a; match a with
    | ⟨0, _⟩ => exact Fin.ext (Nat.div_one _)
    | ⟨1, _⟩ => rfl
  rw [e, v13_at]
  rfl

/-- Column 1 of the output, as a vector over the batch: V. -/
theorem v17_at (b : Fin 65536) :
    val_main_v17 (F := Ideal) x0 x2 x3 x4 x5 x6 x7 (ix1 b) = Spec.vRow x0 x2 x3 x4 x5 x6 x7 b := by
  rw [val_main_v17_apply, val_main_v16_apply]
  have e : idx_main_v16 (idx_main_v17 (ix1 b)) = ix2 b (1 : Fin 2) := by
    funext a; match a with
    | ⟨0, _⟩ => exact Fin.ext (Nat.div_one _)
    | ⟨1, _⟩ => rfl
  rw [e, v13_at]
  rfl

/-! ### The forward pass, second copy (inside the gradient): operations 18 to 31 -/

theorem lidx_v18 (b : Fin 65536) (j : Fin 2048) (k : Fin 4) : lidx_main_v18 (ix2 b j) k = ix2 b k := by
  funext a; match a with | ⟨0, _⟩ => rfl | ⟨1, _⟩ => rfl
theorem ridx_v18 (b : Fin 65536) (j : Fin 2048) (k : Fin 4) : ridx_main_v18 (ix2 b j) k = ix2 k j := by
  funext a; match a with | ⟨0, _⟩ => rfl | ⟨1, _⟩ => rfl

theorem v20_at (b : Fin 65536) (j : Fin 2048) : val_main_v20 (F := Ideal) x3 (ix2 b j) = Spec.vec x3 j := by
  rw [val_main_v20_apply, val_main_v19_apply]
  refine congrArg x3 ?_
  funext a; match a with | ⟨0, _⟩ => rfl

/-- The first hidden layer, recomputed, at (b, j) is a1 of row b. -/
theorem v22_at (b : Fin 65536) (j : Fin 2048) :
    val_main_v22 (F := Ideal) x0 x2 x3 (ix2 b j) = Spec.a1 (Spec.rowOf x0 b) (Spec.mat x2) (Spec.vec x3) j := by
  rw [val_main_v22_apply, val_main_v21_apply, val_main_v18_apply, v20_at]
  simp only [Ideal.hostUnary_tanh_def, Ideal.addf_def, lidx_v18, ridx_v18]
  rfl

/-- One minus the first hidden layer. -/
theorem v24_at (b : Fin 65536) (j : Fin 2048) :
    val_main_v24 (F := Ideal) x0 x2 x3 (ix2 b j)
      = Ideal.ofBits .f32 0x3F800000#32 - Spec.a1 (Spec.rowOf x0 b) (Spec.mat x2) (Spec.vec x3) j := by
  rw [val_main_v24_apply, val_main_v23_apply, val_main_cst_apply, v22_at]
  rfl

theorem lidx_v25 (b : Fin 65536) (j : Fin 2048) (k : Fin 2048) : lidx_main_v25 (ix2 b j) k = ix2 b k := by
  funext a; match a with | ⟨0, _⟩ => rfl | ⟨1, _⟩ => rfl
theorem ridx_v25 (b : Fin 65536) (j : Fin 2048) (k : Fin 2048) : ridx_main_v25 (ix2 b j) k = ix2 k j := by
  funext a; match a with | ⟨0, _⟩ => rfl | ⟨1, _⟩ => rfl

theorem v27_at (b : Fin 65536) (j : Fin 2048) : val_main_v27 (F := Ideal) x5 (ix2 b j) = Spec.vec x5 j := by
  rw [val_main_v27_apply, val_main_v26_apply]
  refine congrArg x5 ?_
  funext a; match a with | ⟨0, _⟩ => rfl

/-- The second hidden layer, recomputed, at (b, j) is a2 of row b. -/
theorem v29_at (b : Fin 65536) (j : Fin 2048) :
    val_main_v29 (F := Ideal) x0 x2 x3 x4 x5 (ix2 b j)
      = Spec.a2 (Spec.rowOf x0 b) (Spec.mat x2) (Spec.vec x3) (Spec.mat x4) (Spec.vec x5) j := by
  rw [val_main_v29_apply, val_main_v28_apply, val_main_v25_apply, v27_at]
  simp only [Ideal.hostUnary_tanh_def, Ideal.addf_def, lidx_v25, ridx_v25, v22_at]
  rfl

/-- One minus the second hidden layer. -/
theorem v31_at (b : Fin 65536) (j : Fin 2048) :
    val_main_v31 (F := Ideal) x0 x2 x3 x4 x5 (ix2 b j)
      = Ideal.ofBits .f32 0x3F800000#32 - Spec.a2 (Spec.rowOf x0 b) (Spec.mat x2) (Spec.vec x3) (Spec.mat x4) (Spec.vec x5) j := by
  rw [val_main_v31_apply, val_main_v30_apply, val_main_cst_0_apply, v29_at]
  rfl

/-! ### The upstream gradient: a column of ones padded with a column of zeros on the left -/

/-- The column of ones is one everywhere. -/
theorem v40_const (i : S65536x1.Idx) : val_main_v40 (F := Ideal) i = Ideal.ofBits .f32 0x3F800000#32 := by
  rw [val_main_v40_apply, val_main_v39_apply, val_main_cst_2_apply]
  rfl

/-- The padded array at (b, c): the pad value zero at column 0, one at column 1. -/
theorem v41_at (b : Fin 65536) (c : Fin 2) : val_main_v41 (F := Ideal) (ix2 b c) = Spec.onehot c := by
  unfold val_main_v41 pad
  match c with
  | ⟨0, _⟩ =>
    rw [dif_neg]
    · rfl
    · intro h
      exact Nat.not_succ_le_zero 0 (h 1).1
  | ⟨1, _⟩ =>
    rw [dif_pos]
    · rw [v40_const]; rfl
    · intro a
      match a with
      | ⟨0, _⟩ =>
        show (0 : ℕ) ≤ b.val ∧ (b.val - 0) % (0 + 1) = 0 ∧ (b.val - 0) / (0 + 1) < 65536
        have := b.isLt
        omega
      | ⟨1, _⟩ =>
        show (1 : ℕ) ≤ 1 ∧ (1 - 1) % (0 + 1) = 0 ∧ (1 - 1) / (0 + 1) < 1
        omega

theorem lidx_v42 (b : Fin 65536) (j : Fin 2048) (k : Fin 2) : lidx_main_v42 (ix2 b j) k = ix2 b k := by
  funext a; match a with | ⟨0, _⟩ => rfl | ⟨1, _⟩ => rfl
theorem ridx_v42 (b : Fin 65536) (j : Fin 2048) (k : Fin 2) : ridx_main_v42 (ix2 b j) k = ix2 j k := by
  funext a; match a with | ⟨0, _⟩ => rfl | ⟨1, _⟩ => rfl

/-- The upstream gradient pulled back through the output layer. -/
theorem v42_at (b : Fin 65536) (j : Fin 2048) :
    val_main_v42 (F := Ideal) x6 (ix2 b j) = Spec.pullT Spec.onehot (Spec.mat x6) j := by
  rw [val_main_v42_apply]
  simp only [lidx_v42, ridx_v42, v41_at]
  rfl

/-! ### Backpropagation: operations 43 to 50 -/

/-- dV/dz2 at (b, j), in the second form. -/
theorem v45_at (b : Fin 65536) (j : Fin 2048) :
    val_main_v45 (F := Ideal) x0 x2 x3 x4 x5 x6 (ix2 b j)
      = Spec.g2R (Spec.rowOf x0 b) (Spec.mat x2) (Spec.vec x3) (Spec.mat x4) (Spec.vec x5) (Spec.mat x6) j := by
  rw [val_main_v45_apply, val_main_v44_apply, val_main_v43_apply, v42_at, v31_at, v29_at]
  rfl

theorem lidx_v46 (b : Fin 65536) (i : Fin 2048) (k : Fin 2048) : lidx_main_v46 (ix2 b i) k = ix2 b k := by
  funext a; match a with | ⟨0, _⟩ => rfl | ⟨1, _⟩ => rfl
theorem ridx_v46 (b : Fin 65536) (i : Fin 2048) (k : Fin 2048) : ridx_main_v46 (ix2 b i) k = ix2 i k := by
  funext a; match a with | ⟨0, _⟩ => rfl | ⟨1, _⟩ => rfl

/-- dV/dz2 pulled back through the second layer. -/
theorem v46_at (b : Fin 65536) (i : Fin 2048) :
    val_main_v46 (F := Ideal) x0 x2 x3 x4 x5 x6 (ix2 b i)
      = Spec.pullT (Spec.g2R (Spec.rowOf x0 b) (Spec.mat x2) (Spec.vec x3) (Spec.mat x4) (Spec.vec x5) (Spec.mat x6)) (Spec.mat x4) i := by
  rw [val_main_v46_apply]
  simp only [lidx_v46, ridx_v46, v45_at]
  rfl

/-- dV/dz1 at (b, i), in the second form. -/
theorem v49_at (b : Fin 65536) (i : Fin 2048) :
    val_main_v49 (F := Ideal) x0 x2 x3 x4 x5 x6 (ix2 b i)
      = Spec.g1R (Spec.rowOf x0 b) (Spec.mat x2) (Spec.vec x3) (Spec.mat x4) (Spec.vec x5) (Spec.mat x6) i := by
  rw [val_main_v49_apply, val_main_v48_apply, val_main_v47_apply, v46_at, v24_at, v22_at]
  rfl

theorem lidx_v50 (b : Fin 65536) (k : Fin 4) (i : Fin 2048) : lidx_main_v50 (ix2 b k) i = ix2 b i := by
  funext a; match a with | ⟨0, _⟩ => rfl | ⟨1, _⟩ => rfl
theorem ridx_v50 (b : Fin 65536) (k : Fin 4) (i : Fin 2048) : ridx_main_v50 (ix2 b k) i = ix2 k i := by
  funext a; match a with | ⟨0, _⟩ => rfl | ⟨1, _⟩ => rfl

/-- dV/dx at (b, k), in the second form. -/
theorem v50_at (b : Fin 65536) (k : Fin 4) :
    val_main_v50 (F := Ideal) x0 x2 x3 x4 x5 x6 (ix2 b k) = Spec.dvRRow x0 x2 x3 x4 x5 x6 b k := by
  rw [val_main_v50_apply]
  simp only [lidx_v50, ridx_v50, v49_at]
  rfl

/-! ### The pendulum: operations 51 to 103 -/

/-- Column 1 of the batch, as a vector. -/
theorem v52_at (b : Fin 65536) : val_main_v52 (F := Ideal) x0 (ix1 b) = Spec.rowOf x0 b 1 := by
  rw [val_main_v52_apply, val_main_v51_apply]
  refine congrArg x0 ?_
  funext a; match a with
  | ⟨0, _⟩ => exact Fin.ext (Nat.div_one _)
  | ⟨1, _⟩ => rfl

/-- Column 2 of the batch, as a vector. -/
theorem v54_at (b : Fin 65536) : val_main_v54 (F := Ideal) x0 (ix1 b) = Spec.rowOf x0 b 2 := by
  rw [val_main_v54_apply, val_main_v53_apply]
  refine congrArg x0 ?_
  funext a; match a with
  | ⟨0, _⟩ => exact Fin.ext (Nat.div_one _)
  | ⟨1, _⟩ => rfl

/-- Column 3 of the batch, as a vector. -/
theorem v56_at (b : Fin 65536) : val_main_v56 (F := Ideal) x0 (ix1 b) = Spec.rowOf x0 b 3 := by
  rw [val_main_v56_apply, val_main_v55_apply]
  refine congrArg x0 ?_
  funext a; match a with
  | ⟨0, _⟩ => exact Fin.ext (Nat.div_one _)
  | ⟨1, _⟩ => rfl

theorem v57_at (b : Fin 65536) : val_main_v57 (F := Ideal) x0 (ix1 b) = Ideal.cos (Spec.rowOf x0 b 2) := by
  rw [val_main_v57_apply, v54_at]; rfl
theorem v58_at (b : Fin 65536) : val_main_v58 (F := Ideal) x0 (ix1 b) = Ideal.sin (Spec.rowOf x0 b 2) := by
  rw [val_main_v58_apply, v54_at]; rfl

/-- The common denominator. -/
theorem v63_at (b : Fin 65536) : val_main_v63 (F := Ideal) x0 (ix1 b) = Spec.den (Spec.rowOf x0 b) := by
  rw [val_main_v63_apply, val_main_v62_apply, val_main_cst_5_apply, val_main_v61_apply, val_main_v60_apply,
    val_main_v59_apply, val_main_cst_4_apply, v57_at]
  rfl

/-- The force on the cart, the control being y_pred. -/
theorem v66_at (b : Fin 65536) :
    val_main_v66 (F := Ideal) x0 x2 x3 x4 x5 x6 x7 (ix1 b)
      = Spec.force (Spec.rowOf x0 b) (Spec.ypRow x0 x2 x3 x4 x5 x6 x7 b) := by
  rw [val_main_v66_apply, v15_at, val_main_v65_apply, val_main_v64_apply, val_main_cst_6_apply, v52_at]
  rfl

/-- The cart's acceleration. -/
theorem v82_at (b : Fin 65536) :
    val_main_v82 (F := Ideal) x0 x2 x3 x4 x5 x6 x7 (ix1 b)
      = Spec.acc2 (Spec.rowOf x0 b) (Spec.ypRow x0 x2 x3 x4 x5 x6 x7 b) := by
  rw [val_main_v82_apply, v63_at, val_main_v81_apply, val_main_v76_apply, val_main_v72_apply,
    val_main_v69_apply, val_main_v68_apply, val_main_v67_apply, val_main_cst_7_apply,
    val_main_v71_apply, val_main_v70_apply, val_main_cst_8_apply, v66_at,
    val_main_v75_apply, val_main_v74_apply, val_main_v73_apply, val_main_cst_9_apply,
    val_main_v80_apply, val_main_v79_apply, val_main_v78_apply, val_main_v77_apply, val_main_cst_10_apply,
    v57_at, v58_at, v56_at]
  rfl

/-- The pendulum's angular acceleration. -/
theorem v98_at (b : Fin 65536) :
    val_main_v98 (F := Ideal) x0 x2 x3 x4 x5 x6 x7 (ix1 b)
      = Spec.acc4 (Spec.rowOf x0 b) (Spec.ypRow x0 x2 x3 x4 x5 x6 x7 b) := by
  rw [val_main_v98_apply, v63_at, val_main_v97_apply, val_main_v91_apply, val_main_v88_apply,
    val_main_v84_apply, val_main_v83_apply, val_main_cst_11_apply,
    val_main_v87_apply, val_main_v86_apply, val_main_v85_apply, val_main_cst_12_apply, v66_at,
    val_main_v90_apply, val_main_v89_apply, val_main_cst_13_apply,
    val_main_v96_apply, val_main_v95_apply, val_main_v94_apply, val_main_v93_apply, val_main_v92_apply,
    val_main_cst_14_apply, v57_at, v58_at, v56_at]
  rfl

/-- The four columns of the state's time derivative, each a vector over the batch turned into a [65536, 1] array. -/
theorem v99_at (b : Fin 65536) (c : Fin 1) : val_main_v99 (F := Ideal) x0 (ix2 b c) = Spec.rowOf x0 b 1 := by
  rw [val_main_v99_apply]
  have e : idx_main_v99 (ix2 b c) = ix1 b := by funext a; match a with | ⟨0, _⟩ => rfl
  rw [e, v52_at]
theorem v100_at (b : Fin 65536) (c : Fin 1) :
    val_main_v100 (F := Ideal) x0 x2 x3 x4 x5 x6 x7 (ix2 b c)
      = Spec.acc2 (Spec.rowOf x0 b) (Spec.ypRow x0 x2 x3 x4 x5 x6 x7 b) := by
  rw [val_main_v100_apply]
  have e : idx_main_v100 (ix2 b c) = ix1 b := by funext a; match a with | ⟨0, _⟩ => rfl
  rw [e, v82_at]
theorem v101_at (b : Fin 65536) (c : Fin 1) : val_main_v101 (F := Ideal) x0 (ix2 b c) = Spec.rowOf x0 b 3 := by
  rw [val_main_v101_apply]
  have e : idx_main_v101 (ix2 b c) = ix1 b := by funext a; match a with | ⟨0, _⟩ => rfl
  rw [e, v56_at]
theorem v102_at (b : Fin 65536) (c : Fin 1) :
    val_main_v102 (F := Ideal) x0 x2 x3 x4 x5 x6 x7 (ix2 b c)
      = Spec.acc4 (Spec.rowOf x0 b) (Spec.ypRow x0 x2 x3 x4 x5 x6 x7 b) := by
  rw [val_main_v102_apply]
  have e : idx_main_v102 (ix2 b c) = ix1 b := by funext a; match a with | ⟨0, _⟩ => rfl
  rw [e, v98_at]

/-- The four columns joined along axis 1: at (b, k), column k at (b, 0). -/
theorem v103_at (b : Fin 65536) (k : Fin 4) :
    val_main_v103 (F := Ideal) x0 x2 x3 x4 x5 x6 x7 (ix2 b k)
      = Spec.xdot (Spec.rowOf x0 b) (Spec.ypRow x0 x2 x3 x4 x5 x6 x7 b) k := by
  unfold val_main_v103
  have hi : ∀ (k : Fin 4) (c : Fin S65536x1.rank), c.cast (rfl : S65536x1.rank = S65536x4.rank) ≠ (1 : Fin S65536x4.rank) →
      ((ix2 b (0 : Fin 1) : S65536x1.Idx) c).val = ((ix2 b k : S65536x4.Idx) (c.cast rfl)).val := by
    intro k c hc
    match c with
    | ⟨0, _⟩ => rfl
    | ⟨1, _⟩ => exact absurd rfl hc
  match k with
  | ⟨0, _⟩ =>
    refine (concatenate_apply_piece (1 : Fin S65536x4.rank) _ _ _ 0 (by simp) S65536x1 _ rfl rfl 0 rfl
      (ix2 b (0 : Fin 1)) (hi _) rfl).trans ?_
    rw [v99_at]; rfl
  | ⟨1, _⟩ =>
    refine (concatenate_apply_piece (1 : Fin S65536x4.rank) _ _ _ 1 (by simp) S65536x1 _ rfl rfl 1 rfl
      (ix2 b (0 : Fin 1)) (hi _) rfl).trans ?_
    rw [v100_at]; rfl
  | ⟨2, _⟩ =>
    refine (concatenate_apply_piece (1 : Fin S65536x4.rank) _ _ _ 2 (by simp) S65536x1 _ rfl rfl 2 rfl
      (ix2 b (0 : Fin 1)) (hi _) rfl).trans ?_
    rw [v101_at]; rfl
  | ⟨3, _⟩ =>
    refine (concatenate_apply_piece (1 : Fin S65536x4.rank) _ _ _ 3 (by simp) S65536x1 _ rfl rfl 3 rfl
      (ix2 b (0 : Fin 1)) (hi _) rfl).trans ?_
    rw [v102_at]; rfl

/-- The derivative of V along the flow, as zero plus the sum over the four coordinates. -/
theorem v105_at (b : Fin 65536) :
    val_main_v105 (F := Ideal) x0 x2 x3 x4 x5 x6 x7 (ix1 b)
      = Spec.vdotR (Spec.rowOf x0 b) (Spec.ypRow x0 x2 x3 x4 x5 x6 x7 b) (Spec.dvRRow x0 x2 x3 x4 x5 x6 b) := by
  rw [val_main_v105_apply, val_main_cst_15_apply]
  have e : ∀ k : Fin 4, idx_main_v105 (ix1 b) k = ix2 b k := fun k => by
    funext a; match a with | ⟨0, _⟩ => rfl | ⟨1, _⟩ => rfl
  simp only [e, val_main_v104_apply, v50_at, v103_at]
  rfl

/-! ### The batch loss: operations 106 to 122 -/

/-- y_pred at an arbitrary index of the batch. -/
theorem v15_arr (i : S65536.Idx) :
    val_main_v15 (F := Ideal) x0 x2 x3 x4 x5 x6 x7 i = Spec.ypArr x0 x2 x3 x4 x5 x6 x7 i := by
  obtain ⟨b, rfl⟩ : ∃ b : Fin 65536, i = ix1 b := ⟨i 0, ValueIdx.eq_ix1 i⟩
  rw [v15_at]
  rfl

/-- The squared log-difference at one sample. -/
theorem v113_at (i : S65536.Idx) :
    val_main_v113 (F := Ideal) x0 x1 x2 x3 x4 x5 x6 x7 i
      = (Ideal.log1p (max (Spec.ypArr x0 x2 x3 x4 x5 x6 x7 i) (Ideal.ofBits .f32 0x33D6BF95#32))
          - Ideal.log1p (max (x1 i) (Ideal.ofBits .f32 0x33D6BF95#32)))
        * (Ideal.log1p (max (Spec.ypArr x0 x2 x3 x4 x5 x6 x7 i) (Ideal.ofBits .f32 0x33D6BF95#32))
          - Ideal.log1p (max (x1 i) (Ideal.ofBits .f32 0x33D6BF95#32))) := by
  rw [val_main_v113_apply, val_main_v112_apply, val_main_v108_apply, val_main_v107_apply, v15_arr,
    val_main_v106_apply, val_main_cst_16_apply, val_main_v111_apply, val_main_v110_apply,
    val_main_v109_apply, val_main_cst_17_apply]
  rfl

/-- The squared difference at one sample. -/
theorem v117_at (i : S65536.Idx) :
    val_main_v117 (F := Ideal) x0 x1 x2 x3 x4 x5 x6 x7 i
      = (x1 i - Spec.ypArr x0 x2 x3 x4 x5 x6 x7 i) * (x1 i - Spec.ypArr x0 x2 x3 x4 x5 x6 x7 i) := by
  rw [val_main_v117_apply, val_main_v116_apply, v15_arr]
  rfl

/-- The batch loss. -/
theorem v122_at (i : S_.Idx) :
    val_main_v122 (F := Ideal) x0 x1 x2 x3 x4 x5 x6 x7 i = Spec.custom (Spec.ypArr x0 x2 x3 x4 x5 x6 x7) x1 := by
  rw [val_main_v122_apply, val_main_v120_apply, val_main_v121_apply, val_main_cst_22_apply, val_main_cst_23_apply,
    val_main_v115_apply, val_main_v119_apply, val_main_cst_19_apply, val_main_cst_21_apply,
    val_main_v114_apply, val_main_v118_apply, val_main_cst_18_apply, val_main_cst_20_apply]
  simp only [v113_at, v117_at]
  rfl

end Staged

/-! ### The result: operations 123 to 132 -/

/-- The reference's result at sample b is outR b. -/
theorem result (x0 : (⟨S65536x4, .f32⟩ : BufTy).Contents (Elt Ideal)) (x1 : (⟨S65536, .f32⟩ : BufTy).Contents (Elt Ideal)) (x2 : (⟨S4x2048, .f32⟩ : BufTy).Contents (Elt Ideal)) (x3 : (⟨S2048, .f32⟩ : BufTy).Contents (Elt Ideal)) (x4 : (⟨S2048x2048, .f32⟩ : BufTy).Contents (Elt Ideal)) (x5 : (⟨S2048, .f32⟩ : BufTy).Contents (Elt Ideal)) (x6 : (⟨S2048x2, .f32⟩ : BufTy).Contents (Elt Ideal)) (x7 : (⟨S2, .f32⟩ : BufTy).Contents (Elt Ideal)) (b : Fin 65536) :
    Cert.ReferenceIdeal.Read.val_main_v132 (F := Ideal) x0 x1 x2 x3 x4 x5 x6 x7 (ValueIdx.ix1 b) = Cert.Spec.outR x0 x1 x2 x3 x4 x5 x6 x7 b := by
  rw [val_main_v132_apply, val_main_v128_apply, val_main_v127_apply, v122_at,
    val_main_v126_apply, val_main_v125_apply, val_main_cst_24_apply, val_main_v124_apply, val_main_v123_apply, v17_at,
    val_main_call0_v0_apply, val_main_call0_cst_apply,
    val_main_v131_apply, val_main_v130_apply, val_main_cst_25_apply, val_main_v129_apply, v105_at,
    val_main_call1_v0_apply, val_main_call1_cst_apply]
  rfl

end Cert.RefRead

end
-- ==== Proof.Algebra.lean ====
/-
  The two spellings of the gradient agree, and so do the two groupings of the sums.

  Over the extended reals addition and multiplication are commutative and associative, but multiplication does not
  distribute over addition at the infinities. So the one step that needs distributivity — the tanh step,
  g (1 - a a) against g (1 - a) + g (1 - a) a — is done in the real numbers: a tanh value is always real, and the
  gradient arriving at each tanh is a finite sum of products of real weights and real gradients, hence real.
  Everything else (dropping a leading zero, regrouping a sum) holds for all extended reals.
-/
import proofs.«114953_j21019569946955_2_alg».proof.Proof.Spec
import Mathlib.Data.EReal.Operations
import Mathlib.Algebra.BigOperators.Fin
import Mathlib.Tactic.Ring
import Mathlib.Tactic.NormNum

noncomputable section

namespace Cert.Algebra

open Idealize.ShloMosaic Cert.Spec

/-! ### The two literal words -/

/-- The word of 1.0 denotes 1. -/
theorem ofBits_one : Ideal.ofBits .f32 0x3F800000#32 = (1 : EReal) := by
  simp [Ideal.ofBits, Ideal.ieee, -EReal.coe_mul]; norm_num

/-- The word of 0.0 denotes 0. -/
theorem ofBits_zero : Ideal.ofBits .f32 0x00000000#32 = (0 : EReal) := Ideal.ofBits_zero_f32

/-! ### The one-hot pull-back selects column 1 -/

theorem pullT_onehot {n : ℕ} (W : Fin n → Fin 2 → EReal) (j : Fin n) : pullT onehot W j = W j 1 := by
  unfold pullT
  rw [Fin.sum_univ_two]
  have h0 : onehot 0 = 0 := by
    unfold onehot; rw [if_pos (show ((0 : Fin 2)).val = 0 from rfl), ofBits_zero]
  have h1 : onehot 1 = 1 := by
    unfold onehot; rw [if_neg (show ¬ ((1 : Fin 2)).val = 0 by decide), ofBits_one]
  rw [h0, h1, zero_mul, one_mul, zero_add]

/-! ### Real values -/

/-- A tanh value is a real number, whatever the argument. -/
theorem tanh_real (x : EReal) : ∃ r : ℝ, Ideal.tanh x = (r : EReal) := by
  induction x using EReal.rec with
  | bot => exact ⟨-1, by rw [EReal.coe_neg, EReal.coe_one]; rfl⟩
  | coe r => exact ⟨Real.tanh r, rfl⟩
  | top => exact ⟨1, by rw [EReal.coe_one]; rfl⟩

/-- A finite sum of real numbers is a real number. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A real gradient row pulled back through a real matrix is real. -/
theorem pullT_real {n p : ℕ} (g : Fin p → EReal) (W : Fin n → Fin p → EReal)
    (hg : ∀ j, ∃ r : ℝ, g j = (r : EReal)) (hW : ∀ i j, ∃ r : ℝ, W i j = (r : EReal)) (i : Fin n) :
    ∃ r : ℝ, pullT g W i = (r : EReal) := by
  unfold pullT
  refine sum_real _ _ fun j _ => ?_
  obtain ⟨r, hr⟩ := hg j
  obtain ⟨t, ht⟩ := hW i j
  exact ⟨r * t, by rw [hr, ht, EReal.coe_mul]⟩

/-! ### The tanh step, on real numbers -/

/-- g (1 - a a) on reals is the real number r (1 - s s). -/
theorem dtanhK_coe (r s : ℝ) : dtanhK (r : EReal) (s : EReal) = ((r * (1 - s * s) : ℝ) : EReal) := by
  unfold dtanhK
  rw [ofBits_one, ← EReal.coe_one, ← EReal.coe_mul, ← EReal.coe_sub, ← EReal.coe_mul]

/-- g (1 - a) + g (1 - a) a on reals is the same real number, since (1 - s) + (1 - s) s = 1 - s s. -/
theorem dtanhR_coe (r s : ℝ) : dtanhR (r : EReal) (s : EReal) = ((r * (1 - s * s) : ℝ) : EReal) := by
  unfold dtanhR
  rw [ofBits_one, ← EReal.coe_one, ← EReal.coe_sub, ← EReal.coe_mul, ← EReal.coe_mul, ← EReal.coe_add]
  exact congrArg _ (by ring)

/-- The two forms of the tanh step agree on real arguments, and the value is real. -/
theorem dtanh_eq {g a : EReal} (hg : ∃ r : ℝ, g = (r : EReal)) (ha : ∃ s : ℝ, a = (s : EReal)) :
    dtanhK g a = dtanhR g a ∧ ∃ t : ℝ, dtanhK g a = (t : EReal) := by
  obtain ⟨r, rfl⟩ := hg
  obtain ⟨s, rfl⟩ := ha
  exact ⟨(dtanhK_coe r s).trans (dtanhR_coe r s).symm, _, dtanhK_coe r s⟩

/-! ### The gradient, layer by layer -/

section net
variable (x : Fin 4 → EReal) (W1 : Fin 4 → Fin 2048 → EReal) (b1 : Fin 2048 → EReal)
  (W2 : Fin 2048 → Fin 2048 → EReal) (b2 : Fin 2048 → EReal) (W3 : Fin 2048 → Fin 2 → EReal)

theorem a1_real (i : Fin 2048) : ∃ s : ℝ, a1 x W1 b1 i = (s : EReal) := tanh_real _

theorem a2_real (j : Fin 2048) : ∃ s : ℝ, a2 x W1 b1 W2 b2 j = (s : EReal) := tanh_real _

/-- At the second hidden layer the two forms agree and are real, when the last weight matrix is real. -/
theorem g2_eq (hW3 : ∀ i j, ∃ r : ℝ, W3 i j = (r : EReal)) (j : Fin 2048) :
    g2K x W1 b1 W2 b2 W3 j = g2R x W1 b1 W2 b2 W3 j ∧ ∃ t : ℝ, g2K x W1 b1 W2 b2 W3 j = (t : EReal) := by
  unfold g2K g2R
  rw [pullT_onehot]
  exact dtanh_eq (hW3 j 1) (a2_real x W1 b1 W2 b2 j)

/-- At the first hidden layer the two forms agree, when the last two weight matrices are real. -/
theorem g1_eq (hW2 : ∀ i j, ∃ r : ℝ, W2 i j = (r : EReal)) (hW3 : ∀ i j, ∃ r : ℝ, W3 i j = (r : EReal))
    (i : Fin 2048) : g1K x W1 b1 W2 b2 W3 i = g1R x W1 b1 W2 b2 W3 i := by
  have hfun : g2K x W1 b1 W2 b2 W3 = g2R x W1 b1 W2 b2 W3 := funext fun j => (g2_eq x W1 b1 W2 b2 W3 hW3 j).1
  unfold g1K g1R
  rw [← hfun]
  exact (dtanh_eq (pullT_real _ _ (fun j => (g2_eq x W1 b1 W2 b2 W3 hW3 j).2) hW2 i) (a1_real x W1 b1 i)).1

/-- The gradient with respect to the input: the two forms agree. -/
theorem dv_eq (hW2 : ∀ i j, ∃ r : ℝ, W2 i j = (r : EReal)) (hW3 : ∀ i j, ∃ r : ℝ, W3 i j = (r : EReal))
    (k : Fin 4) : dvK x W1 b1 W2 b2 W3 k = dvR x W1 b1 W2 b2 W3 k := by
  have hfun : g1K x W1 b1 W2 b2 W3 = g1R x W1 b1 W2 b2 W3 := funext fun i => g1_eq x W1 b1 W2 b2 W3 hW2 hW3 i
  unfold dvK dvR
  rw [hfun]
end net

/-! ### The regroupings, for all extended reals -/

/-- Four terms added left to right are zero plus the sum over the four coordinates. -/
theorem vdot_eq (x : Fin 4 → EReal) (u : EReal) (dv : Fin 4 → EReal) : vdotK x u dv = vdotR x u dv := by
  unfold vdotK vdotR
  rw [ofBits_zero, zero_add, Fin.sum_univ_four]
  rfl

/-- loss + (penalty + penalty) is (loss + penalty) + penalty, and 0 - V is -V. -/
theorem res_eq (c V vd : EReal) : resK c V vd = resR c V vd := by
  unfold resK resR penK
  rw [ofBits_zero, sub_eq_add_neg, zero_add, add_assoc]

/-! ### One sample's result -/

theorem out_eq (X : (⟨2, ![65536, 4]⟩ : Shape).Idx → EReal) (Y : (⟨1, ![65536]⟩ : Shape).Idx → EReal)
    (W1 : (⟨2, ![4, 2048]⟩ : Shape).Idx → EReal) (B1 : (⟨1, ![2048]⟩ : Shape).Idx → EReal)
    (W2 : (⟨2, ![2048, 2048]⟩ : Shape).Idx → EReal) (B2 : (⟨1, ![2048]⟩ : Shape).Idx → EReal)
    (W3 : (⟨2, ![2048, 2]⟩ : Shape).Idx → EReal) (B3 : (⟨1, ![2]⟩ : Shape).Idx → EReal)
    (hW2 : Cert.Spec.IsReal W2) (hW3 : Cert.Spec.IsReal W3) (b : Fin 65536) :
    Cert.Spec.outK X Y W1 B1 W2 B2 W3 B3 b = Cert.Spec.outR X Y W1 B1 W2 B2 W3 B3 b := by
  have hdv : dvKRow X W1 B1 W2 B2 W3 b = dvRRow X W1 B1 W2 B2 W3 b :=
    funext fun k => dv_eq (rowOf X b) (mat W1) (vec B1) (mat W2) (vec B2) (mat W3)
      (fun i j => hW2 (ValueIdx.ix2 i j)) (fun i j => hW3 (ValueIdx.ix2 i j)) k
  unfold outK outR
  rw [hdv, vdot_eq, res_eq]

end Cert.Algebra

end
-- ==== Proof.Finite.lean ====
/-
  The precondition says every input is finite; here that is read back for the two weight matrices the algebra needs.

  The precondition is a conjunction of eight tests, one per input array: every entry x has |x| < +infinity. Over the
  extended reals |x| is max x (-x), which is the top element exactly when x is one of the two infinities; so an
  entry that passes the test is a real number.
-/
import proofs.«114953_j21019569946955_2_alg».proof.Pre_finite_inputs
import proofs.«114953_j21019569946955_2_alg».proof.Proof.Gen.Pre_finite_inputs
import proofs.«114953_j21019569946955_2_alg».proof.Proof.Spec
import Idealize.ShloMosaic.Lib.ReduceAll
import Idealize.ShloMosaic.Lib.ValueIdx

noncomputable section

namespace Cert.Finite

open Idealize.ShloMosaic Cert.Pre_finite_inputs

/-- The rank-0 shape has exactly one index. -/
instance : Subsingleton S_.Idx := ⟨fun _ _ => funext fun d => d.elim0⟩

/-- The word 0x7F800000 denotes +infinity. -/
theorem ofBits_inf : Ideal.ofBits .f32 0x7F800000#32 = (⊤ : EReal) := by
  simp [Ideal.ofBits, Ideal.ieee]

/-- A one-bit word made from a Boolean is 1 exactly when the Boolean is true. -/
theorem ofBool_eq_one {b : Bool} : BitVec.ofBool b = 1#1 ↔ b = true := by cases b <;> decide

/-- An extended real whose absolute value is below +infinity is a real number. -/
theorem real_of_abs_lt_top (x : EReal) (h : max x (-x) < ⊤) : ∃ r : ℝ, x = (r : EReal) := by
  induction x using EReal.rec with
  | bot => exact absurd h (by rw [EReal.neg_bot, max_eq_right bot_le]; exact lt_irrefl _)
  | coe r => exact ⟨r, rfl⟩
  | top => exact absurd h (by rw [max_eq_left le_top]; exact lt_irrefl _)

/-- One entry's test: |a i| < +infinity, as the printed comparison spells it, makes a i real. -/
theorem elem_real {s : Shape} (bc : S_.BroadcastsInDim s (![] : Fin 0 → Fin s.rank)) (a : FVec Ideal s .f32) (i : s.Idx)
    (h : cmpf .olt (Host.absf a) (broadcastInDim s ![] bc (constant S_ .f32 0x7F800000#32)) i = 1#1) :
    ∃ r : ℝ, a i = (r : EReal) := by
  have h' : Ideal.cmp .olt (max (a i) (-(a i))) (Ideal.ofBits .f32 0x7F800000#32) = 1#1 := h
  rw [ofBits_inf] at h'
  unfold Ideal.cmp at h'
  rw [ofBool_eq_one] at h'
  exact real_of_abs_lt_top (a i) (of_decide_eq_true h')

/-- Under the precondition the [2048, 2048] and the [2048, 2] weight matrices hold real numbers only. -/
theorem real_of_pre [Cert.Pre_finite_inputs.Facts]
    (a0 : FVec Ideal S65536x4 .f32) (a1 : FVec Ideal S65536 .f32) (a2 : FVec Ideal S4x2048 .f32)
    (a3 : FVec Ideal S2048 .f32) (a4 : FVec Ideal S2048x2048 .f32) (a5 : FVec Ideal S2048 .f32)
    (a6 : FVec Ideal S2048x2 .f32) (a7 : FVec Ideal S2 .f32)
    (h : Cert.Pre_finite_inputs.fn (F := Ideal) a0 a1 a2 a3 a4 a5 a6 a7 = (fun _ => 1#1)) :
    Cert.Spec.IsReal a4 ∧ Cert.Spec.IsReal a6 := by
  have e := congrFun h ValueIdx.ix0
  dsimp only [fn, fn_part1, fn_part2] at e
  simp only [andi, IntOp.andi_eq_one] at e
  obtain ⟨⟨⟨⟨-, h4⟩, -⟩, h6⟩, -⟩ := e
  exact ⟨fun i => elem_real _ a4 i (Host.reduce_andi_all _ _ _ _ _ h4 i),
    fun i => elem_real _ a6 i (Host.reduce_andi_all _ _ _ _ _ h6 i)⟩

end Cert.Finite

end
-- ==== Proof.lean ====
/-
  The certificate's five claims.

  Both idealized programs compute, for every sample of the batch, a batch loss plus two penalties. The kernel
  program's result is read off its run (the region's array as one function of the arguments, then the host
  operations after the region); the reference's result is its host program read one operation at a time. The two
  readings differ in how the derivative of tanh is written — g (1 - a a) against g (1 - a) + g (1 - a) a — in how the
  upstream gradient enters (a column of W3 against a one-hot row times W3 transposed), and in the grouping of two
  sums. They are the same extended real because the weights are finite (the precondition) and tanh takes real
  values, so the products involved are products of real numbers, where (1 - a)(1 + a) = 1 - a a.
  The three frames are the programs' generated runs; nothing was rewritten by the idealization, so there is
  nothing to preserve.
-/
import proofs.«114953_j21019569946955_2_alg».proof.Defs
import proofs.«114953_j21019569946955_2_alg».proof.Proof.Gen.Kernel
import proofs.«114953_j21019569946955_2_alg».proof.Proof.Gen.Kernel.Skeleton
import proofs.«114953_j21019569946955_2_alg».proof.Proof.Gen.Kernel.Launch
import proofs.«114953_j21019569946955_2_alg».proof.Proof.Gen.Kernel.Points
import proofs.«114953_j21019569946955_2_alg».proof.Proof.Gen.Kernel.Frame
import proofs.«114953_j21019569946955_2_alg».proof.Proof.Gen.KernelIdeal
import proofs.«114953_j21019569946955_2_alg».proof.Proof.Gen.KernelIdeal.Skeleton
import proofs.«114953_j21019569946955_2_alg».proof.Proof.Gen.KernelIdeal.Launch
import proofs.«114953_j21019569946955_2_alg».proof.Proof.Gen.KernelIdeal.Points
import proofs.«114953_j21019569946955_2_alg».proof.Proof.Gen.KernelIdeal.Frame
import proofs.«114953_j21019569946955_2_alg».proof.Proof.Gen.ReferenceIdeal
import proofs.«114953_j21019569946955_2_alg».proof.Proof.Gen.ReferenceIdeal.Run
import proofs.«114953_j21019569946955_2_alg».proof.Proof.Gen.ReferenceIdeal.Read
import proofs.«114953_j21019569946955_2_alg».proof.Proof.Gen.Pre_finite_inputs
import proofs.«114953_j21019569946955_2_alg».proof.Proof.KValue
import proofs.«114953_j21019569946955_2_alg».proof.Proof.RefRead
import proofs.«114953_j21019569946955_2_alg».proof.Proof.Algebra
import proofs.«114953_j21019569946955_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the per-sample result in the kernel's spelling: the kernel by its run read back, the
    reference by its own spelling and the equality of the two under finite weights. -/
theorem algebraic : Cert.algebraic_KernelIdeal_ReferenceIdeal := by
  intro m ρ m' ρ' hpre hagree
  refine ⟨fun c => Cert.KValue.result m c, Cert.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v132_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext i
  obtain ⟨b, rfl⟩ : ∃ b : Fin 65536, i = ValueIdx.ix1 b := ⟨i 0, ValueIdx.eq_ix1 i⟩
  rw [Cert.RefRead.result]
  obtain ⟨hW2, hW3⟩ := Cert.Finite.real_of_pre _ _ _ _ _ _ _ _ (hpre c)
  exact (Cert.Algebra.out_eq _ _ _ _ _ _ _ _ hW2 hW3 b).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
